-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg8 : FVec F S3x128 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_cst_20 : FVec F S_ .f32 := constant S_ .f32 0x00000000#32
  let main_v54 : FVec F S3x128 .f32 := broadcastInDim S3x128 ![] bcast_S_S3x128 main_cst_20
  let main_v55 : IVec S3x128 1 := cmpf .oge main_arg8 main_v54
  let main_c_21 : IVec S_ 1 := constantI S_ 1 1#1
  let main_v56 : IVec S_ 1 := (fun x v => Host.reduce IntOp.andi x v reducesTo_S3x128_S_d0_1 h_S_) main_v55 main_c_21
  let main_v57 : IVec S_ 1 := andi main_v53 main_v56
  main_v57

def fn_part2 {F : FTy → Type} [FloatOps F] (main_arg8 : FVec F S3x128 .f32) (main_arg9 : FVec F S128x128 .f32) (main_arg10 : FVec F S2x128 .f32) (main_arg11 : FVec F S2 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg8 main_v48 main_v49 main_v50

def fn_part1 {F : FTy → Type} [FloatOps F] (main_arg5 : FVec F S3x128 .f32) (main_arg6 : FVec F S3x128 .f32) (main_arg7 : FVec F S3x128 .f32) (main_arg8 : FVec F S3x128 .f32) (main_arg9 : FVec F S128x128 .f32) (main_arg10 : FVec F S2x128 .f32) (main_arg11 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S128x128 .f32) (main_arg10 : FVec F S2x128 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S1x128 : Shape := ⟨2, ![1, 128]⟩
abbrev S128 : Shape := ⟨1, ![128]⟩
abbrev S4000x128 : Shape := ⟨2, ![4000, 128]⟩
abbrev S128x2 : Shape := ⟨2, ![128, 2]⟩
abbrev S100000x2 : Shape := ⟨2, ![100000, 2]⟩
abbrev S4000x2 : Shape := ⟨2, ![4000, 2]⟩
abbrev S1x2 : Shape := ⟨2, ![1, 2]⟩

abbrev nBuf : Space → Nat
  | .hbm => 141
  | .vmem => 33
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S128x128, .f32⟩
  | 10 => ⟨S2x128, .f32⟩
  | 11 => ⟨S2, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S_, .f32⟩
  | 19 => ⟨S100000, .f32⟩
  | 20 => ⟨S600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S_, .f32⟩
  | 37 => ⟨S3x128, .f32⟩
  | 38 => ⟨S3x128, .f32⟩
  | 39 => ⟨S3x128, .f32⟩
  | 40 => ⟨S3x128, .f32⟩
  | 41 => ⟨S3x128, .f32⟩
  | 42 => ⟨S3x128, .f32⟩
  | 43 => ⟨S3x128, .f32⟩
  | 44 => ⟨S100000x128, .bf16⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .bf16⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S100000x128, .f32⟩
  | 60 => ⟨S100000x128, .f32⟩
  | 61 => ⟨S100000x128, .bf16⟩
  | 62 => ⟨S1x128x128, .f32⟩
  | 63 => ⟨S128x128, .f32⟩
  | 64 => ⟨S128x128, .f32⟩
  | 65 => ⟨S128x128, .bf16⟩
  | 66 => ⟨S1x128x128, .f32⟩
  | 67 => ⟨S128x128, .f32⟩
  | 68 => ⟨S128x128, .f32⟩
  | 69 => ⟨S128x128, .bf16⟩
  | 70 => ⟨S1x128, .f32⟩
  | 71 => ⟨S128, .f32⟩
  | 72 => ⟨S1x128, .f32⟩
  | 73 => ⟨S128, .f32⟩
  | 74 => ⟨S128x128, .f32⟩
  | 75 => ⟨S128x128, .bf16⟩
  | 76 => ⟨S100000x128, .f32⟩
  | 77 => ⟨S100000x128, .bf16⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .bf16⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S100000x128, .f32⟩
  | 93 => ⟨S100000x128, .f32⟩
  | 94 => ⟨S100000x128, .bf16⟩
  | 95 => ⟨S1x128x128, .f32⟩
  | 96 => ⟨S128x128, .f32⟩
  | 97 => ⟨S128x128, .f32⟩
  | 98 => ⟨S128x128, .bf16⟩
  | 99 => ⟨S1x128x128, .f32⟩
  | 100 => ⟨S128x128, .f32⟩
  | 101 => ⟨S128x128, .f32⟩
  | 102 => ⟨S128x128, .bf16⟩
  | 103 => ⟨S1x128, .f32⟩
  | 104 => ⟨S128, .f32⟩
  | 105 => ⟨S1x128, .f32⟩
  | 106 => ⟨S128, .f32⟩
  | 107 => ⟨S100000x128, .f32⟩
  | 108 => ⟨S100000x128, .bf16⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .bf16⟩
  | 118 => ⟨S600000x128, .f32⟩
  | 119 => ⟨S_, .f32⟩
  | 120 => ⟨S100000x128, .f32⟩
  | 121 => ⟨S600000x1, .i32⟩
  | 122 => ⟨S100000x128, .f32⟩
  | 123 => ⟨S100000x128, .f32⟩
  | 124 => ⟨S100000x128, .f32⟩
  | 125 => ⟨S100000x128, .bf16⟩
  | 126 => ⟨S1x128x128, .f32⟩
  | 127 => ⟨S128x128, .f32⟩
  | _ => ⟨S100000x128, .f32⟩

abbrev hbmTy0_1 (i : Nat) : BufTy := match i % 128 with
  | 0 => ⟨S128x128, .f32⟩
  | 1 => ⟨S128x128, .bf16⟩
  | 2 => ⟨S1x128x128, .f32⟩
  | 3 => ⟨S128x128, .f32⟩
  | 4 => ⟨S128x128, .f32⟩
  | 5 => ⟨S128x128, .bf16⟩
  | 6 => ⟨S1x128, .f32⟩
  | 7 => ⟨S128, .f32⟩
  | 8 => ⟨S1x128, .f32⟩
  | 9 => ⟨S128, .f32⟩
  | 10 => ⟨S128x2, .f32⟩
  | 11 => ⟨S128x2, .bf16⟩
  | 12 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128, .f32⟩
  | .local _ .vmem, ⟨8, _⟩ => ⟨S128x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S128x128, .bf16⟩
  | .local _ .vmem, ⟨16, _⟩ => ⟨S128x128, .bf16⟩
  | .local _ .vmem, ⟨17, _⟩ => ⟨S128, .f32⟩
  | .local _ .vmem, ⟨18, _⟩ => ⟨S128, .f32⟩
  | .local _ .vmem, ⟨19, _⟩ => ⟨S4000x128, .f32⟩
  | .local _ .vmem, ⟨20, _⟩ => ⟨S4000x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S128x128, .bf16⟩
  | .local _ .vmem, ⟨26, _⟩ => ⟨S128x128, .bf16⟩
  | .local _ .vmem, ⟨27, _⟩ => ⟨S128, .f32⟩
  | .local _ .vmem, ⟨28, _⟩ => ⟨S128, .f32⟩
  | .local _ .vmem, ⟨29, _⟩ => ⟨S128x2, .bf16⟩
  | .local _ .vmem, ⟨30, _⟩ => ⟨S2, .f32⟩
  | .local _ .vmem, ⟨31, _⟩ => ⟨S4000x2, .f32⟩
  | .local _ .vmem, ⟨32, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_8 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_11 : Ref sig .tc := ⟨.hbm, 109, rfl⟩
abbrev main_v82 : Ref sig .tc := ⟨.hbm, 110, rfl⟩
abbrev main_v83 : Ref sig .tc := ⟨.hbm, 111, rfl⟩
abbrev main_c_12 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S3x128 : S_.BroadcastsInDim S3x128 (![] : Fin 0 → Fin S3x128.rank)
  bitsLt_bf16_f32 : FTy.bits .bf16 < FTy.bits .f32
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .bf16 = 32 ∨ (Rect.block (s := S128x2) S128x2.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x2.size a ≤ S100000x2.size a
  hwx2_8 : ∀ i : grid2.Coords, EltTy.bits .f32 = 32 ∨ (Rect.block (s := S100000x2) S4000x2.size (cc2_transform_8 i) (hinb2_8 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v67) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v95) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v99) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v105) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v107) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v109) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v110) S4000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S2x128 : Shape := ⟨2, ![2, 128]⟩
abbrev S2 : Shape := ⟨1, ![2]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S1x128 : Shape := ⟨2, ![1, 128]⟩
abbrev S128 : Shape := ⟨1, ![128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S128x128, .f32⟩
  | 10 => ⟨S2x128, .f32⟩
  | 11 => ⟨S2, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S_, .f32⟩
  | 19 => ⟨S100000, .f32⟩
  | 20 => ⟨S600000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S100000x128, .f32⟩
  | 50 => ⟨S100000x128, .f32⟩
  | 51 => ⟨S1x128x128, .f32⟩
  | 52 => ⟨S128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128x128, .f32⟩
  | 61 => ⟨S128x128, .f32⟩
  | 62 => ⟨S128x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S128x128, .f32⟩
  | 93 => ⟨S100000x128, .f32⟩
  | 94 => ⟨S100000x128, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S_, .f32⟩
  | 105 => ⟨S100000x128, .f32⟩
  | 106 => ⟨S600000x1, .i32⟩
  | 107 => ⟨S100000x128, .f32⟩
  | 108 => ⟨S100000x128, .f32⟩
  | 109 => ⟨S100000x128, .f32⟩
  | 110 => ⟨S1x128x128, .f32⟩
  | 111 => ⟨S128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128x128, .f32⟩
  | 120 => ⟨S128x128, .f32⟩
  | 121 => ⟨S128x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S100000x128, .f32⟩
  | 35 => ⟨S600000x1, .i32⟩
  | 36 => ⟨S100000x128, .f32⟩
  | 37 => ⟨S100000x128, .f32⟩
  | 38 => ⟨S100000x128, .f32⟩
  | 39 => ⟨S1x128x128, .f32⟩
  | 40 => ⟨S128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S1x128x128, .f32⟩
  | 49 => ⟨S128x128, .f32⟩
  | 50 => ⟨S128x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x128, .f32⟩
  | 81 => ⟨S128x2, .f32⟩
  | 82 => ⟨S100000x2, .f32⟩
  | 83 => ⟨S1x2, .f32⟩
  | 84 => ⟨S100000x2, .f32⟩
  | 85 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_8 : Ref sig .tc := ⟨.hbm, 95, rfl⟩
abbrev main_v69 : Ref sig .tc := ⟨.hbm, 96, rfl⟩
abbrev main_v70 : Ref sig .tc := ⟨.hbm, 97, rfl⟩
abbrev main_c_9 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_10 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_11 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_call2_cst : Ref sig .tc := ⟨.hbm, 148, rfl⟩
abbrev main_call2_v0 : Ref sig .tc := ⟨.hbm, 149, rfl⟩
abbrev main_v118 : Ref sig .tc := ⟨.hbm, 150, rfl⟩
abbrev main_v119 : Ref sig .tc := ⟨.hbm, 151, rfl⟩
abbrev main_c_12 : Ref sig .tc := ⟨.hbm, 152, rfl⟩
abbrev main_v120 : Ref sig .tc := ⟨.hbm, 153, rfl⟩
abbrev main_v121 : Ref sig .tc := ⟨.hbm, 154, rfl⟩
abbrev main_c_13 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_14 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_15 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_call3_cst : Ref sig .tc := ⟨.hbm, 205, rfl⟩
abbrev main_call3_v0 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run with its result named.

  The program is three pipelined regions among stretches of host operations. Its frame is proved by running the
  segments in order from the launch memory and reading the last thread state against the final memory: every buffer
  the pipeline does not scope ends at the fold `W8` of the host stretches and the regions' write-backs. The frame
  keeps of that only the argument buffers; here the same run is re-posted keeping also the result buffer, which
  ends at `W8` read at it.
-/
import proofs.«170960_j60790967107705_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold of the
    segments read at it, and the argument buffers end as launched. -/
theorem run_value : θ_run defs (onTc (τ := τ) (main (F := F))) ⟨m, fun _ => 0, ρ⟩ (fun r => ∀ c : Dev nD,
      r.2.mem ((c.tc : Thread nD τ).loc main_v110) = W8 m ρ c (Proc.devRef .tc main_v110) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v110 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.RunValue

end
-- ==== Proof.Basics.lean ====
/-
  Extended reals that are real numbers, and the one algebraic law of this certificate.

  An array "is real" when every entry is a real number (neither infinity). Sums of products of real entries are real,
  and on real numbers the two ways of writing a normalised affine layer agree: scaling the sum of the two products by
  the folded factor `g * rs` and adding the folded shift `bb + (bl - mu) * (g * rs)` is the same as adding the bias,
  subtracting the mean, scaling by `rs` and by `g` and adding `bb` — distributivity, which the extended reals only have
  away from the infinities.
-/
import Idealize.ShloMosaic.PureOps.Ideal.Laws
import Idealize.ShloMosaic.Lib.ValueIdx

noncomputable section

open scoped BigOperators

namespace Cert.Sage

/-- Every entry of the array is a real number. -/
def IsReal {ι : Type} (x : ι → EReal) : Prop := ∀ i, ∃ r : ℝ, x i = (r : EReal)

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem real_sum {κ : Type} [Fintype κ] (a : κ → EReal) (ha : ∀ k, ∃ r : ℝ, a k = r) :
    ∃ r : ℝ, ∑ k, a k = (r : EReal) := by
  choose a' ha' using ha
  exact ⟨∑ k, a' k, by rw [coe_sum]; exact Finset.sum_congr rfl fun k _ => ha' k⟩

/-- A finite sum of products of real entries is real. -/
theorem real_sum_mul {κ : Type} [Fintype κ] (a b : κ → EReal) (ha : ∀ k, ∃ r : ℝ, a k = r)
    (hb : ∀ k, ∃ r : ℝ, b k = r) : ∃ r : ℝ, ∑ k, a k * b k = (r : EReal) := by
  refine real_sum _ fun k => ?_
  obtain ⟨x, hx⟩ := ha k
  obtain ⟨y, hy⟩ := hb k
  exact ⟨x * y, by rw [hx, hy, EReal.coe_mul]⟩

/-- The larger of a real and zero is real. -/
theorem real_max_zero (r : ℝ) : ∃ q : ℝ, max (r : EReal) 0 = (q : EReal) := by
  rcases le_total r 0 with h | h
  · exact ⟨0, by rw [max_eq_right (by exact_mod_cast h)]; rfl⟩
  · exact ⟨r, max_eq_left (by exact_mod_cast h)⟩

/-- THE LAW: on real numbers the folded affine form `(s1 + s2) * (g * rs) + (bb + (bl - mu) * (g * rs))` is the
    unfolded one `((((s1 + bl) + s2) - mu) * rs) * g + bb`. -/
theorem affine_forms (s1 s2 bl mu rs g bb : ℝ) :
    (((s1 : EReal) + s2) * ((g : EReal) * rs)) + ((bb : EReal) + ((bl : EReal) - mu) * ((g : EReal) * rs))
      = (((((s1 : EReal) + bl) + s2) - mu) * rs) * g + bb := by
  simp only [← EReal.coe_add, ← EReal.coe_mul, ← EReal.coe_sub]
  exact congrArg _ (by ring)

end Cert.Sage
-- ==== Proof.LayerSpec.lean ====
/-
  One layer of the network as a function of whole arrays, entry by entry, in the kernel's folded form.

  With `agg` the mean-aggregated features and `x` the node features (both 100000 × 128), `wl`, `wr` the two
  128 × 128 weight matrices already transposed, and `sc`, `sh` the folded scale and shift vectors, the rectified
  normalised sum at node `n` and feature `j` is

    max ((Σ_k agg(n,k)·wl(k,j) + Σ_k x(n,k)·wr(k,j)) · sc(j) + sh(j), 0).

  The first layer adds the projected input Σ_k x(n,k)·pt(k,j), the middle layer adds x(n,j) itself, and the last
  layer feeds the sum with x(n,j) into the 128 × 2 classifier and adds its bias. `fold_eq_unfolded` is the law that
  joins this form to the reference's: with `sc = g·rs` and `sh = bb + (bl − mu)·(g·rs)`, on real entries the folded
  form is `((((Σ agg·wl + bl) + Σ x·wr) − mu)·rs)·g + bb`.
-/
import proofs.«170960_j60790967107705_2_alg».proof.Proof.Basics

noncomputable section

open scoped BigOperators

namespace Cert.Sage

open Idealize.ShloMosaic Idealize.ShloMosaic.ValueIdx

/-- A matrix of extended reals over a literal shape. -/
abbrev A2 (a b : Nat) := (⟨2, ![a, b]⟩ : Shape).Idx → EReal
/-- A vector of extended reals over a literal shape. -/
abbrev A1 (a : Nat) := (⟨1, ![a]⟩ : Shape).Idx → EReal

/-- The rectified, scaled and shifted sum of the two products at node `n`, feature `j`. -/
def hfold (agg x : A2 100000 128) (wl wr : A2 128 128) (sc sh : A1 128) (n : Fin 100000) (j : Fin 128) : EReal :=
  max (((∑ k : Fin 128, agg (ix2 n k) * wl (ix2 k j)) + ∑ k : Fin 128, x (ix2 n k) * wr (ix2 k j)) * sc (ix1 j)
      + sh (ix1 j)) (Ideal.ofBits .f32 0x00000000#32)

/-- The first layer: the rectified sum plus the projected input. -/
def layerProj (agg x : A2 100000 128) (wl wr : A2 128 128) (sc sh : A1 128) (pt : A2 128 128) : A2 100000 128 :=
  fun i => hfold agg x wl wr sc sh (i 0) (i 1) + ∑ k : Fin 128, x (ix2 (i 0) k) * pt (ix2 k (i 1))

theorem layerProj_apply (agg x : A2 100000 128) (wl wr : A2 128 128) (sc sh : A1 128) (pt : A2 128 128)
    (n : Fin 100000) (j : Fin 128) :
    layerProj agg x wl wr sc sh pt (ix2 n j)
      = hfold agg x wl wr sc sh n j + ∑ k : Fin 128, x (ix2 n k) * pt (ix2 k j) := rfl

/-- The middle layer: the rectified sum plus the input itself. -/
def layerMid (agg x : A2 100000 128) (wl wr : A2 128 128) (sc sh : A1 128) : A2 100000 128 :=
  fun i => hfold agg x wl wr sc sh (i 0) (i 1) + x (ix2 (i 0) (i 1))

theorem layerMid_apply (agg x : A2 100000 128) (wl wr : A2 128 128) (sc sh : A1 128) (n : Fin 100000) (j : Fin 128) :
    layerMid agg x wl wr sc sh (ix2 n j) = hfold agg x wl wr sc sh n j + x (ix2 n j) := rfl

/-- The last layer with the classifier: the middle layer's value times the 128 × 2 matrix, plus the bias. -/
def layerFinal (agg x : A2 100000 128) (wl wr : A2 128 128) (sc sh : A1 128) (ct : A2 128 2) (cb : A1 2) :
    A2 100000 2 :=
  fun i => (∑ j : Fin 128, (hfold agg x wl wr sc sh (i 0) j + x (ix2 (i 0) j)) * ct (ix2 j (i 1))) + cb (ix1 (i 1))

theorem layerFinal_apply (agg x : A2 100000 128) (wl wr : A2 128 128) (sc sh : A1 128) (ct : A2 128 2) (cb : A1 2)
    (n : Fin 100000) (q : Fin 2) :
    layerFinal agg x wl wr sc sh ct cb (ix2 n q)
      = (∑ j : Fin 128, (hfold agg x wl wr sc sh n j + x (ix2 n j)) * ct (ix2 j q)) + cb (ix1 q) := rfl

/-- THE LAW at one entry: with the scale `g·rs` and the shift `bb + (bl − mu)·(g·rs)`, and every entry involved a real
    number, the folded form is the unfolded one. -/
theorem fold_eq_unfolded (agg x : A2 100000 128) (wl wr : A2 128 128) (g rs bb bl mu : A1 128)
    (hagg : IsReal agg) (hx : IsReal x) (hwl : IsReal wl) (hwr : IsReal wr) (hg : IsReal g) (hrs : IsReal rs)
    (hbb : IsReal bb) (hbl : IsReal bl) (hmu : IsReal mu) (n : Fin 100000) (j : Fin 128) :
    hfold agg x wl wr (fun i => g i * rs i) (fun i => bb i + (bl i - mu i) * (g i * rs i)) n j
      = max ((((((∑ k : Fin 128, agg (ix2 n k) * wl (ix2 k j)) + bl (ix1 j))
            + ∑ k : Fin 128, x (ix2 n k) * wr (ix2 k j)) - mu (ix1 j)) * rs (ix1 j)) * g (ix1 j) + bb (ix1 j))
          (Ideal.ofBits .f32 0x00000000#32) := by
  obtain ⟨s1, h1⟩ : ∃ r : ℝ, (∑ k : Fin 128, agg (ix2 n k) * wl (ix2 k j)) = (r : EReal) :=
    real_sum_mul (fun k : Fin 128 => agg (ix2 n k)) (fun k => wl (ix2 k j)) (fun k => hagg _) (fun k => hwl _)
  obtain ⟨s2, h2⟩ : ∃ r : ℝ, (∑ k : Fin 128, x (ix2 n k) * wr (ix2 k j)) = (r : EReal) :=
    real_sum_mul (fun k : Fin 128 => x (ix2 n k)) (fun k => wr (ix2 k j)) (fun k => hx _) (fun k => hwr _)
  obtain ⟨g', hg'⟩ := hg (ix1 j)
  obtain ⟨rs', hrs'⟩ := hrs (ix1 j)
  obtain ⟨bb', hbb'⟩ := hbb (ix1 j)
  obtain ⟨bl', hbl'⟩ := hbl (ix1 j)
  obtain ⟨mu', hmu'⟩ := hmu (ix1 j)
  unfold hfold
  dsimp only
  rw [h1, h2, hg', hrs', hbb', hbl', hmu', affine_forms]

/-- The rectified sum is a real number when everything it reads is. -/
theorem hfold_real (agg x : A2 100000 128) (wl wr : A2 128 128) (sc sh : A1 128)
    (hagg : IsReal agg) (hx : IsReal x) (hwl : IsReal wl) (hwr : IsReal wr) (hsc : IsReal sc) (hsh : IsReal sh)
    (n : Fin 100000) (j : Fin 128) : ∃ r : ℝ, hfold agg x wl wr sc sh n j = (r : EReal) := by
  obtain ⟨s1, h1⟩ : ∃ r : ℝ, (∑ k : Fin 128, agg (ix2 n k) * wl (ix2 k j)) = (r : EReal) :=
    real_sum_mul (fun k : Fin 128 => agg (ix2 n k)) (fun k => wl (ix2 k j)) (fun k => hagg _) (fun k => hwl _)
  obtain ⟨s2, h2⟩ : ∃ r : ℝ, (∑ k : Fin 128, x (ix2 n k) * wr (ix2 k j)) = (r : EReal) :=
    real_sum_mul (fun k : Fin 128 => x (ix2 n k)) (fun k => wr (ix2 k j)) (fun k => hx _) (fun k => hwr _)
  obtain ⟨a, ha⟩ := hsc (ix1 j)
  obtain ⟨b, hb⟩ := hsh (ix1 j)
  unfold hfold
  rw [h1, h2, ha, hb, Ideal.ofBits_zero_f32, ← EReal.coe_add, ← EReal.coe_mul, ← EReal.coe_add]
  exact real_max_zero _

end Cert.Sage
-- ==== Proof.KernelCarry.lean ====
/-
  What the buffers that every region reuses hold at each boundary of the kernel program.

  Between its three regions the kernel program runs host operations.  The ones before the first region compute, once,
  the arrays every layer reads again: the two rows of the edge list, the column of inverse in-degrees, the folded scale
  g * rsqrt (v + eps) and the folded shift bb + (bl - mu) * (g * rsqrt (v + eps)) for all three layers at once; the weight
  stacks and the classifier's parameters are arguments.  No region and no later host operation writes any of them, so
  each holds at every later boundary what it held at the first region's entry.  The edge rows and the inverse in-degrees
  are the reference's own stages: the only difference is that the kernel program makes the in-degree column by a reshape
  where the reference broadcasts along a unit axis, and the two are the same array.
-/
import proofs.«170960_j60790967107705_2_alg».proof.Proof.Gen.KernelIdeal.Frame
import proofs.«170960_j60790967107705_2_alg».proof.Proof.ReadP
import proofs.«170960_j60790967107705_2_alg».proof.Proof.LayerSpec
import Idealize.ShloMosaic.PureOps.Ideal.Laws
import Idealize.ShloMosaic.Lib.ValueIdx
import Idealize.ShloMosaic.Lib.Pipeline.Value

set_option maxRecDepth 16384
set_option maxHeartbeats 1000000

noncomputable section

namespace Cert.KernelIdeal.HostValue

open Cert.KernelIdeal Cert.KernelIdeal.Gen Cert.Sage Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Reshaping a vector to a one-column matrix and broadcasting it along the rows of a one-column matrix are the same
    array: both hold the vector's entry `i 0` at `(i 0, 0)`. -/
theorem col_reshape_eq_bcast {α : Type} (Z : S100000.Idx → α) (h : S100000.ShapeCasts S100000x1)
    (hb : S100000.BroadcastsInDim S100000x1 ![0]) :
    shapeCast S100000x1 Z h = broadcastInDim S100000x1 ![0] hb Z := by
  funext i
  rw [shapeCast_apply Z h i (ix1 (i 0)) (by
        rewrite [Shape.rowMajor_val_one, Shape.rowMajor_val_two]
        have h1 : (i 1).val < 1 := (i 1).isLt
        show (i 0).val = (i 0).val * 1 + (i 1).val
        omega),
    broadcastInDim_apply ![0] hb Z i (ix1 (i 0)) (fun a => match a with
      | ⟨0, _⟩ => by show (i 0).val = if (100000 : Nat) = 1 then 0 else (i 0).val; rw [if_neg (by decide)])]

/-- The inlined selection, with its contents read at the buffers' own types: the transports are identities. -/
theorem where_casts (X9 : (⟨S100000, .i1⟩ : BufTy).Contents (Elt Ideal)) (X13 : (⟨S100000, .f32⟩ : BufTy).Contents (Elt Ideal))
    (K : (⟨S_, .f32⟩ : BufTy).Contents (Elt Ideal)) :
    (TRef.of main_v14 : TRef sig ⟨S100000, .f32⟩).toBuf
        (select ((TRef.of main_v9 : TRef sig ⟨S100000, .i1⟩).ofBuf X9) ((TRef.of main_v13 : TRef sig ⟨S100000, .f32⟩).ofBuf X13)
          ((TRef.of main_call0_v1 : TRef sig ⟨S100000, .f32⟩).ofBuf ((TRef.of main_call0_v1 : TRef sig ⟨S100000, .f32⟩).toBuf
            (broadcastInDim S100000 ![] bcast_S_S100000
              ((TRef.of main_call0_v0 : TRef sig ⟨S_, .f32⟩).ofBuf ((TRef.of main_call0_v0 : TRef sig ⟨S_, .f32⟩).toBuf
                (id ((TRef.of main_cst_4 : TRef sig ⟨S_, .f32⟩).ofBuf K))))))))
      = select X9 X13 (broadcastInDim S100000 ![] bcast_S_S100000 (id K)) := rfl

/-! ## At region 0's entry -/

/-- At region 0's entry: the source row of the edge list. -/
theorem w3_v1 : (W3 (F := Ideal) m ρ c (Proc.devRef .tc main_v1) : (⟨1, ![600000]⟩ : Shape).Idx → BitVec 32)
    = Cert.ReferenceIdeal.Read.val_main_v1 (F := Ideal) (m ((c : Thread nD τ).loc main_arg1)) := by
  show StableHlo.after hostOps0_2 (W2 m ρ c) (Proc.devRef .tc main_v1) = _
  after_results_simp
  rfl

/-- At region 0's entry: the destination row of the edge list. -/
theorem w3_v3 : (W3 (F := Ideal) m ρ c (Proc.devRef .tc main_v3) : (⟨1, ![600000]⟩ : Shape).Idx → BitVec 32)
    = Cert.ReferenceIdeal.Read.val_main_v3 (F := Ideal) (m ((c : Thread nD τ).loc main_arg1)) := by
  show StableHlo.after hostOps0_2 (W2 m ρ c) (Proc.devRef .tc main_v3) = _
  after_results_simp
  rfl

/-- At region 0's entry: the column of inverse in-degrees. -/
theorem w3_v15 : (W3 (F := Ideal) m ρ c (Proc.devRef .tc main_v15) : A2 100000 1)
    = Cert.ReferenceIdeal.Read.val_main_v15 (F := Ideal) (m ((c : Thread nD τ).loc main_arg1)) := by
  show StableHlo.after hostOps0_2 (W2 m ρ c) (Proc.devRef .tc main_v15) = _
  after_results_simp
  rw [where_casts]
  exact (col_reshape_eq_bcast _ shapeCasts_S100000_S100000x1 Cert.ReferenceIdeal.Gen.bcast_S100000_S100000x1_0).trans rfl

/-- At region 0's entry: the folded scale g * rsqrt (v + eps), all three layers. -/
theorem w3_v19 : (W3 (F := Ideal) m ρ c (Proc.devRef .tc main_v19) : A2 3 128)
    = (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))) := by
  show StableHlo.after hostOps0_2 (W2 m ρ c) (Proc.devRef .tc main_v19) = _
  after_results_simp

/-- At region 0's entry: the folded shift bb + (bl - mu) * (g * rsqrt (v + eps)), all three layers. -/
theorem w3_v22 : (W3 (F := Ideal) m ρ c (Proc.devRef .tc main_v22) : A2 3 128)
    = (addf (F := Ideal) (s := S3x128) (φ := .f32) (m ((c : Thread nD τ).loc main_arg6)) (mulf (F := Ideal) (s := S3x128) (φ := .f32) (subf (F := Ideal) (s := S3x128) (φ := .f32) (m ((c : Thread nD τ).loc main_arg3)) (m ((c : Thread nD τ).loc main_arg7))) (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))))) := by
  show StableHlo.after hostOps0_2 (W2 m ρ c) (Proc.devRef .tc main_v22) = _
  after_results_simp

/-- At region 0's entry: the left weight stack. -/
theorem w3_arg2 : (W3 (F := Ideal) m ρ c (Proc.devRef .tc main_arg2) : (⟨3, ![3, 128, 128]⟩ : Shape).Idx → EReal)
    = (m ((c : Thread nD τ).loc main_arg2)) := by
  show StableHlo.after hostOps0_2 (W2 m ρ c) (Proc.devRef .tc main_arg2) = _
  after_results_simp

/-- At region 0's entry: the right weight stack. -/
theorem w3_arg4 : (W3 (F := Ideal) m ρ c (Proc.devRef .tc main_arg4) : (⟨3, ![3, 128, 128]⟩ : Shape).Idx → EReal)
    = (m ((c : Thread nD τ).loc main_arg4)) := by
  show StableHlo.after hostOps0_2 (W2 m ρ c) (Proc.devRef .tc main_arg4) = _
  after_results_simp

/-- At region 0's entry: the classifier weights. -/
theorem w3_arg10 : (W3 (F := Ideal) m ρ c (Proc.devRef .tc main_arg10) : A2 2 128)
    = (m ((c : Thread nD τ).loc main_arg10)) := by
  show StableHlo.after hostOps0_2 (W2 m ρ c) (Proc.devRef .tc main_arg10) = _
  after_results_simp

/-- At region 0's entry: the classifier bias. -/
theorem w3_arg11 : (W3 (F := Ideal) m ρ c (Proc.devRef .tc main_arg11) : A1 2)
    = (m ((c : Thread nD τ).loc main_arg11)) := by
  show StableHlo.after hostOps0_2 (W2 m ρ c) (Proc.devRef .tc main_arg11) = _
  after_results_simp

/-! ## Region 0 and the host operations before region 1 leave them -/

/-- At region 0's exit: the source row of the edge list. -/
theorem w4_v1 : (W4 (F := Ideal) m ρ c (Proc.devRef .tc main_v1) : (⟨1, ![600000]⟩ : Shape).Idx → BitVec 32)
    = Cert.ReferenceIdeal.Read.val_main_v1 (F := Ideal) (m ((c : Thread nD τ).loc main_arg1)) :=
  (W4_of_ne m ρ c main_v1 (by decide)).trans (w3_v1 m ρ c)

/-- At region 1's entry: the source row of the edge list. -/
theorem w5_v1 : (W5 (F := Ideal) m ρ c (Proc.devRef .tc main_v1) : (⟨1, ![600000]⟩ : Shape).Idx → BitVec 32)
    = Cert.ReferenceIdeal.Read.val_main_v1 (F := Ideal) (m ((c : Thread nD τ).loc main_arg1)) := by
  show StableHlo.after hostOps1 (W4 m ρ c) (Proc.devRef .tc main_v1) = _
  after_results_simp
  exact w4_v1 m ρ c

/-- At region 1's exit: the source row of the edge list. -/
theorem w6_v1 : (W6 (F := Ideal) m ρ c (Proc.devRef .tc main_v1) : (⟨1, ![600000]⟩ : Shape).Idx → BitVec 32)
    = Cert.ReferenceIdeal.Read.val_main_v1 (F := Ideal) (m ((c : Thread nD τ).loc main_arg1)) :=
  (W6_of_ne m ρ c main_v1 (by decide)).trans (w5_v1 m ρ c)

/-- At region 0's exit: the destination row of the edge list. -/
theorem w4_v3 : (W4 (F := Ideal) m ρ c (Proc.devRef .tc main_v3) : (⟨1, ![600000]⟩ : Shape).Idx → BitVec 32)
    = Cert.ReferenceIdeal.Read.val_main_v3 (F := Ideal) (m ((c : Thread nD τ).loc main_arg1)) :=
  (W4_of_ne m ρ c main_v3 (by decide)).trans (w3_v3 m ρ c)

/-- At region 1's entry: the destination row of the edge list. -/
theorem w5_v3 : (W5 (F := Ideal) m ρ c (Proc.devRef .tc main_v3) : (⟨1, ![600000]⟩ : Shape).Idx → BitVec 32)
    = Cert.ReferenceIdeal.Read.val_main_v3 (F := Ideal) (m ((c : Thread nD τ).loc main_arg1)) := by
  show StableHlo.after hostOps1 (W4 m ρ c) (Proc.devRef .tc main_v3) = _
  after_results_simp
  exact w4_v3 m ρ c

/-- At region 1's exit: the destination row of the edge list. -/
theorem w6_v3 : (W6 (F := Ideal) m ρ c (Proc.devRef .tc main_v3) : (⟨1, ![600000]⟩ : Shape).Idx → BitVec 32)
    = Cert.ReferenceIdeal.Read.val_main_v3 (F := Ideal) (m ((c : Thread nD τ).loc main_arg1)) :=
  (W6_of_ne m ρ c main_v3 (by decide)).trans (w5_v3 m ρ c)

/-- At region 0's exit: the column of inverse in-degrees. -/
theorem w4_v15 : (W4 (F := Ideal) m ρ c (Proc.devRef .tc main_v15) : A2 100000 1)
    = Cert.ReferenceIdeal.Read.val_main_v15 (F := Ideal) (m ((c : Thread nD τ).loc main_arg1)) :=
  (W4_of_ne m ρ c main_v15 (by decide)).trans (w3_v15 m ρ c)

/-- At region 1's entry: the column of inverse in-degrees. -/
theorem w5_v15 : (W5 (F := Ideal) m ρ c (Proc.devRef .tc main_v15) : A2 100000 1)
    = Cert.ReferenceIdeal.Read.val_main_v15 (F := Ideal) (m ((c : Thread nD τ).loc main_arg1)) := by
  show StableHlo.after hostOps1 (W4 m ρ c) (Proc.devRef .tc main_v15) = _
  after_results_simp
  exact w4_v15 m ρ c

/-- At region 1's exit: the column of inverse in-degrees. -/
theorem w6_v15 : (W6 (F := Ideal) m ρ c (Proc.devRef .tc main_v15) : A2 100000 1)
    = Cert.ReferenceIdeal.Read.val_main_v15 (F := Ideal) (m ((c : Thread nD τ).loc main_arg1)) :=
  (W6_of_ne m ρ c main_v15 (by decide)).trans (w5_v15 m ρ c)

/-- At region 0's exit: the folded scale g * rsqrt (v + eps), all three layers. -/
theorem w4_v19 : (W4 (F := Ideal) m ρ c (Proc.devRef .tc main_v19) : A2 3 128)
    = (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))) :=
  (W4_of_ne m ρ c main_v19 (by decide)).trans (w3_v19 m ρ c)

/-- At region 1's entry: the folded scale g * rsqrt (v + eps), all three layers. -/
theorem w5_v19 : (W5 (F := Ideal) m ρ c (Proc.devRef .tc main_v19) : A2 3 128)
    = (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))) := by
  show StableHlo.after hostOps1 (W4 m ρ c) (Proc.devRef .tc main_v19) = _
  after_results_simp
  exact w4_v19 m ρ c

/-- At region 1's exit: the folded scale g * rsqrt (v + eps), all three layers. -/
theorem w6_v19 : (W6 (F := Ideal) m ρ c (Proc.devRef .tc main_v19) : A2 3 128)
    = (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))) :=
  (W6_of_ne m ρ c main_v19 (by decide)).trans (w5_v19 m ρ c)

/-- At region 0's exit: the folded shift bb + (bl - mu) * (g * rsqrt (v + eps)), all three layers. -/
theorem w4_v22 : (W4 (F := Ideal) m ρ c (Proc.devRef .tc main_v22) : A2 3 128)
    = (addf (F := Ideal) (s := S3x128) (φ := .f32) (m ((c : Thread nD τ).loc main_arg6)) (mulf (F := Ideal) (s := S3x128) (φ := .f32) (subf (F := Ideal) (s := S3x128) (φ := .f32) (m ((c : Thread nD τ).loc main_arg3)) (m ((c : Thread nD τ).loc main_arg7))) (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))))) :=
  (W4_of_ne m ρ c main_v22 (by decide)).trans (w3_v22 m ρ c)

/-- At region 1's entry: the folded shift bb + (bl - mu) * (g * rsqrt (v + eps)), all three layers. -/
theorem w5_v22 : (W5 (F := Ideal) m ρ c (Proc.devRef .tc main_v22) : A2 3 128)
    = (addf (F := Ideal) (s := S3x128) (φ := .f32) (m ((c : Thread nD τ).loc main_arg6)) (mulf (F := Ideal) (s := S3x128) (φ := .f32) (subf (F := Ideal) (s := S3x128) (φ := .f32) (m ((c : Thread nD τ).loc main_arg3)) (m ((c : Thread nD τ).loc main_arg7))) (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))))) := by
  show StableHlo.after hostOps1 (W4 m ρ c) (Proc.devRef .tc main_v22) = _
  after_results_simp
  exact w4_v22 m ρ c

/-- At region 1's exit: the folded shift bb + (bl - mu) * (g * rsqrt (v + eps)), all three layers. -/
theorem w6_v22 : (W6 (F := Ideal) m ρ c (Proc.devRef .tc main_v22) : A2 3 128)
    = (addf (F := Ideal) (s := S3x128) (φ := .f32) (m ((c : Thread nD τ).loc main_arg6)) (mulf (F := Ideal) (s := S3x128) (φ := .f32) (subf (F := Ideal) (s := S3x128) (φ := .f32) (m ((c : Thread nD τ).loc main_arg3)) (m ((c : Thread nD τ).loc main_arg7))) (mulf (F := Ideal) (s := S3x128) (φ := .f32) (m ((c : Thread nD τ).loc main_arg5)) (Host.rsqrt (addf (F := Ideal) (s := S3x128) (φ := .f32) (m ((c : Thread nD τ).loc main_arg8)) (broadcastInDim S3x128 ![] bcast_S_S3x128 (constant (F := Ideal) S_ .f32 0x3727C5AC#32))))))) :=
  (W6_of_ne m ρ c main_v22 (by decide)).trans (w5_v22 m ρ c)

/-- At region 0's exit: the left weight stack. -/
theorem w4_arg2 : (W4 (F := Ideal) m ρ c (Proc.devRef .tc main_arg2) : (⟨3, ![3, 128, 128]⟩ : Shape).Idx → EReal)
    = (m ((c : Thread nD τ).loc main_arg2)) :=
  (W4_of_ne m ρ c main_arg2 (by decide)).trans (w3_arg2 m ρ c)

/-- At region 1's entry: the left weight stack. -/
theorem w5_arg2 : (W5 (F := Ideal) m ρ c (Proc.devRef .tc main_arg2) : (⟨3, ![3, 128, 128]⟩ : Shape).Idx → EReal)
    = (m ((c : Thread nD τ).loc main_arg2)) := by
  show StableHlo.after hostOps1 (W4 m ρ c) (Proc.devRef .tc main_arg2) = _
  after_results_simp
  exact w4_arg2 m ρ c

/-- At region 1's exit: the left weight stack. -/
theorem w6_arg2 : (W6 (F := Ideal) m ρ c (Proc.devRef .tc main_arg2) : (⟨3, ![3, 128, 128]⟩ : Shape).Idx → EReal)
    = (m ((c : Thread nD τ).loc main_arg2)) :=
  (W6_of_ne m ρ c main_arg2 (by decide)).trans (w5_arg2 m ρ c)

/-- At region 0's exit: the right weight stack. -/
theorem w4_arg4 : (W4 (F := Ideal) m ρ c (Proc.devRef .tc main_arg4) : (⟨3, ![3, 128, 128]⟩ : Shape).Idx → EReal)
    = (m ((c : Thread nD τ).loc main_arg4)) :=
  (W4_of_ne m ρ c main_arg4 (by decide)).trans (w3_arg4 m ρ c)

/-- At region 1's entry: the right weight stack. -/
theorem w5_arg4 : (W5 (F := Ideal) m ρ c (Proc.devRef .tc main_arg4) : (⟨3, ![3, 128, 128]⟩ : Shape).Idx → EReal)
    = (m ((c : Thread nD τ).loc main_arg4)) := by
  show StableHlo.after hostOps1 (W4 m ρ c) (Proc.devRef .tc main_arg4) = _
  after_results_simp
  exact w4_arg4 m ρ c

/-- At region 1's exit: the right weight stack. -/
theorem w6_arg4 : (W6 (F := Ideal) m ρ c (Proc.devRef .tc main_arg4) : (⟨3, ![3, 128, 128]⟩ : Shape).Idx → EReal)
    = (m ((c : Thread nD τ).loc main_arg4)) :=
  (W6_of_ne m ρ c main_arg4 (by decide)).trans (w5_arg4 m ρ c)

/-- At region 0's exit: the classifier weights. -/
theorem w4_arg10 : (W4 (F := Ideal) m ρ c (Proc.devRef .tc main_arg10) : A2 2 128)
    = (m ((c : Thread nD τ).loc main_arg10)) :=
  (W4_of_ne m ρ c main_arg10 (by decide)).trans (w3_arg10 m ρ c)

/-- At region 1's entry: the classifier weights. -/
theorem w5_arg10 : (W5 (F := Ideal) m ρ c (Proc.devRef .tc main_arg10) : A2 2 128)
    = (m ((c : Thread nD τ).loc main_arg10)) := by
  show StableHlo.after hostOps1 (W4 m ρ c) (Proc.devRef .tc main_arg10) = _
  after_results_simp
  exact w4_arg10 m ρ c

/-- At region 1's exit: the classifier weights. -/
theorem w6_arg10 : (W6 (F := Ideal) m ρ c (Proc.devRef .tc main_arg10) : A2 2 128)
    = (m ((c : Thread nD τ).loc main_arg10)) :=
  (W6_of_ne m ρ c main_arg10 (by decide)).trans (w5_arg10 m ρ c)

/-- At region 0's exit: the classifier bias. -/
theorem w4_arg11 : (W4 (F := Ideal) m ρ c (Proc.devRef .tc main_arg11) : A1 2)
    = (m ((c : Thread nD τ).loc main_arg11)) :=
  (W4_of_ne m ρ c main_arg11 (by decide)).trans (w3_arg11 m ρ c)

/-- At region 1's entry: the classifier bias. -/
theorem w5_arg11 : (W5 (F := Ideal) m ρ c (Proc.devRef .tc main_arg11) : A1 2)
    = (m ((c : Thread nD τ).loc main_arg11)) := by
  show StableHlo.after hostOps1 (W4 m ρ c) (Proc.devRef .tc main_arg11) = _
  after_results_simp
  exact w4_arg11 m ρ c

/-- At region 1's exit: the classifier bias. -/
theorem w6_arg11 : (W6 (F := Ideal) m ρ c (Proc.devRef .tc main_arg11) : A1 2)
    = (m ((c : Thread nD τ).loc main_arg11)) :=
  (W6_of_ne m ρ c main_arg11 (by decide)).trans (w5_arg11 m ρ c)

end Cert.KernelIdeal.HostValue
-- ==== Proof.KernelHost0.lean ====
/-
  The arrays the first region finds are the reference's stages.

  Before its first region the kernel's program computes, on the host, the same arrays as the reference does: the
  mean-aggregated features (a row gather along the source indices, a row scatter-add along the destination indices,
  times the inverse in-degree), the two transposed weight matrices and the transposed projection; and it folds the
  normalisation into a scale `g·rs` and a shift `bb + (bl − mu)·(g·rs)`. Format changes are the identity on extended
  reals, and a reshape of a vector to one column is the broadcast of that vector along a new unit axis; so each array
  is the reference's stage, and the first region's output — the folded first layer of those arrays — is the
  reference's first layer wherever everything read is a real number.
-/
import proofs.«170960_j60790967107705_2_alg».proof.Proof.Gen.KernelIdeal.Frame
import proofs.«170960_j60790967107705_2_alg».proof.Proof.ReadP
import proofs.«170960_j60790967107705_2_alg».proof.Proof.LayerSpec
import proofs.«170960_j60790967107705_2_alg».proof.Proof.KernelCarry
import Idealize.ShloMosaic.PureOps.Ideal.Laws
import Idealize.ShloMosaic.Lib.ValueIdx
import Idealize.ShloMosaic.Lib.Pipeline.Value

set_option maxRecDepth 16384
set_option maxHeartbeats 600000

noncomputable section

open scoped BigOperators

namespace Cert.KernelIdeal.HostValue0

open Cert.KernelIdeal Cert.KernelIdeal.Gen Cert.Sage
open Idealize.ShloMosaic Idealize.ShloMosaic.TcCoe Idealize.SL.Sem Idealize.ShloMosaic.StableHlo Idealize.ShloMosaic.ValueIdx
open Cert.ReferenceIdeal.Read (val_main_v1 val_main_v3 val_main_v15 val_main_v27 val_main_v30 val_main_v33 val_main_v39 val_main_v43 val_main_v51 val_main_v56 val_main_v61 val_main_v66 val_main_v68 val_main_v80 val_main_v83 val_main_v86 val_main_v92 val_main_v96 val_main_v104 val_main_v109 val_main_v114 val_main_v119)

variable (m : (ℓ : Loc nD τ sig) → Buf (Elt Ideal) ℓ) (ρ : Dev nD → PrngReg) (c : Dev nD)

/-- A vector reshaped to one column is the vector broadcast along a new unit axis. -/
theorem col_reshape_eq_bcast (Z : S100000.Idx → EReal) (h : S100000.ShapeCasts S100000x1)
    (hb : S100000.BroadcastsInDim S100000x1 ![0]) :
    shapeCast S100000x1 Z h = broadcastInDim S100000x1 ![0] hb Z := by
  funext i
  have hi : (i 0).val < 100000 := (i 0).isLt
  have h1 : (i 1).val < 1 := (i 1).isLt
  rw [shapeCast_apply Z h i (fun a => match a with | ⟨0, _⟩ => ⟨(i 0).val, hi⟩)
      (by rw [Shape.rowMajor_val_one, Shape.rowMajor_val_two]; show (i 0).val = (i 0).val * 1 + (i 1).val; omega),
    broadcastInDim_apply _ hb Z i (fun a => match a with | ⟨0, _⟩ => ⟨(i 0).val, hi⟩)
      (fun a => match a with
        | ⟨0, _⟩ => by show (i 0).val = if (100000 : Nat) = 1 then 0 else (i 0).val; rw [if_neg (by decide)])]

/-- A narrowing format change is the identity on extended reals. -/
theorem truncf_id {s : Shape} (a : s.Idx → EReal) (h : (FTy.bf16).bits < (FTy.f32).bits) :
    (truncf (F := Ideal) (φ := .f32) .bf16 a h : s.Idx → EReal) = a := rfl

/-- A widening format change is the identity on extended reals. -/
theorem extf_id {s : Shape} (a : s.Idx → EReal) (h : (FTy.bf16).bits < (FTy.f32).bits) :
    (extf (F := Ideal) (φ := .bf16) .f32 a h : s.Idx → EReal) = a := rfl

/-- The reference's one-column inverse in-degrees are the reshape of the vector. -/
theorem v15_col (x1 : (⟨Cert.ReferenceIdeal.S2x600000, .i32⟩ : BufTy).Contents (Elt Ideal)) :
    val_main_v15 (F := Ideal) x1
      = shapeCast S100000x1 (Cert.ReferenceIdeal.Read.val_main_v14 (F := Ideal) x1) Cert.KernelIdeal.Facts₀.shapeCasts_S100000_S100000x1 := by
  unfold Cert.ReferenceIdeal.Read.val_main_v15
  exact (col_reshape_eq_bcast _ _ _).symm

/-- The node features the first region reads are the argument. -/
theorem arg0_eq : V3 (F := Ideal) m ρ c main_arg0 = m ((c : Thread nD τ).loc main_arg0) := by
  show StableHlo.after hostOps0_2 (W2 m ρ c) (Proc.devRef .tc main_arg0) = _
  after_results_simp

/-- The aggregated features the first region reads are the reference's. -/
theorem v37_eq : (V3 (F := Ideal) m ρ c main_v37 : A2 100000 128)
    = val_main_v27 (F := Ideal) (m ((c : Thread nD τ).loc main_arg0)) (m ((c : Thread nD τ).loc main_arg1)) := by
  show StableHlo.after hostOps0_2 (W2 m ρ c) (Proc.devRef .tc main_v37) = _
  after_results_simp
  rw [Cert.KernelIdeal.HostValue.where_casts, truncf_id, truncf_id, extf_id]
  unfold Cert.ReferenceIdeal.Read.val_main_v27 Cert.ReferenceIdeal.Read.val_main_v26 Cert.ReferenceIdeal.Read.val_main_v25
  refine congr (congrArg mulf ?_) (congrArg _ ?_)
  · rfl
  · rw [v15_col]
    refine congrArg (fun Z => shapeCast S100000x1 Z Cert.KernelIdeal.Facts₀.shapeCasts_S100000_S100000x1) ?_
    rfl

/-- The transposed left weights of layer 0. -/
theorem v41_eq : (V3 (F := Ideal) m ρ c main_v41 : A2 128 128) = val_main_v30 (F := Ideal) (m ((c : Thread nD τ).loc main_arg2)) := by
  show StableHlo.after hostOps0_2 (W2 m ρ c) (Proc.devRef .tc main_v41) = _
  after_results_simp
  rfl

/-- The transposed right weights of layer 0. -/
theorem v45_eq : (V3 (F := Ideal) m ρ c main_v45 : A2 128 128) = val_main_v39 (F := Ideal) (m ((c : Thread nD τ).loc main_arg4)) := by
  show StableHlo.after hostOps0_2 (W2 m ρ c) (Proc.devRef .tc main_v45) = _
  after_results_simp
  rfl

/-- The folded scale of layer 0 is `g·rs`. -/
theorem v47_eq : (V3 (F := Ideal) m ρ c main_v47 : A1 128)
    = fun i => val_main_v56 (F := Ideal) (m ((c : Thread nD τ).loc main_arg5)) i * val_main_v51 (F := Ideal) (m ((c : Thread nD τ).loc main_arg8)) i := by
  show StableHlo.after hostOps0_2 (W2 m ρ c) (Proc.devRef .tc main_v47) = _
  after_results_simp
  rfl

/-- The folded shift of layer 0 is `bb + (bl − mu)·(g·rs)`. -/
theorem v49_eq : (V3 (F := Ideal) m ρ c main_v49 : A1 128)
    = fun i => val_main_v61 (F := Ideal) (m ((c : Thread nD τ).loc main_arg6)) i
        + (val_main_v33 (F := Ideal) (m ((c : Thread nD τ).loc main_arg3)) i - val_main_v43 (F := Ideal) (m ((c : Thread nD τ).loc main_arg7)) i)
          * (val_main_v56 (F := Ideal) (m ((c : Thread nD τ).loc main_arg5)) i * val_main_v51 (F := Ideal) (m ((c : Thread nD τ).loc main_arg8)) i) := by
  show StableHlo.after hostOps0_2 (W2 m ρ c) (Proc.devRef .tc main_v49) = _
  after_results_simp
  rfl

/-- The transposed projection. -/
theorem v51_eq : (V3 (F := Ideal) m ρ c main_v51 : A2 128 128) = val_main_v66 (F := Ideal) (m ((c : Thread nD τ).loc main_arg9)) := by
  show StableHlo.after hostOps0_2 (W2 m ρ c) (Proc.devRef .tc main_v51) = _
  after_results_simp
  rfl

end Cert.KernelIdeal.HostValue0
-- ==== Proof.KernelHost1.lean ====
/-
  The arrays the second region finds are the reference's stages.

  Between the first and the second region the kernel's program aggregates the first layer's output over the edges as
  before, slices layer 1's weights, scale and shift, and keeps the first layer's output as the residual input. Given
  that the first region left the reference's first layer `X1` in its output array, each array the second region reads
  is the reference's stage of the same name: the aggregation of `X1`, `X1` itself, the transposed weights, and the
  folded scale `g·rs` and shift `bb + (bl − mu)·(g·rs)` of layer 1.
-/
import proofs.«170960_j60790967107705_2_alg».proof.Proof.Gen.KernelIdeal.Frame
import proofs.«170960_j60790967107705_2_alg».proof.Proof.ReadP
import proofs.«170960_j60790967107705_2_alg».proof.Proof.LayerSpec
import proofs.«170960_j60790967107705_2_alg».proof.Proof.KernelCarry
import proofs.«170960_j60790967107705_2_alg».proof.Proof.KernelHost0
import Idealize.ShloMosaic.PureOps.Ideal.Laws
import Idealize.ShloMosaic.Lib.ValueIdx
import Idealize.ShloMosaic.Lib.Pipeline.Value

set_option maxRecDepth 16384
set_option maxHeartbeats 600000

noncomputable section

open scoped BigOperators

namespace Cert.KernelIdeal.HostValue1

open Cert.KernelIdeal Cert.KernelIdeal.Gen Cert.Sage
open Idealize.ShloMosaic Idealize.ShloMosaic.TcCoe Idealize.SL.Sem Idealize.ShloMosaic.StableHlo Idealize.ShloMosaic.ValueIdx
open Cert.ReferenceIdeal.Read (val_main_v1 val_main_v3 val_main_v15 val_main_v27 val_main_v30 val_main_v33 val_main_v39 val_main_v43 val_main_v51 val_main_v56 val_main_v61 val_main_v66 val_main_v68 val_main_v80 val_main_v83 val_main_v86 val_main_v92 val_main_v96 val_main_v104 val_main_v109 val_main_v114 val_main_v119)

variable (m : (ℓ : Loc nD τ sig) → Buf (Elt Ideal) ℓ) (ρ : Dev nD → PrngReg) (c : Dev nD)

open Cert.KernelIdeal.HostValue Cert.KernelIdeal.HostValue0

/-- The aggregated features the second region reads are the reference's aggregation of its first layer. -/
theorem v67_eq (hX : (W4 (F := Ideal) m ρ c (Proc.devRef .tc main_v52) : A2 100000 128) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    (V5 (F := Ideal) m ρ c main_v67 : A2 100000 128) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps1 (W4 m ρ c) (Proc.devRef .tc main_v67) = _
  after_results_simp
  rw [w4_v1 m ρ c, w4_v3 m ρ c, w4_v15 m ρ c, hX]
  unfold Cert.ReferenceIdeal.Read.val_main_v80 Cert.ReferenceIdeal.Read.val_main_v78 Cert.ReferenceIdeal.Read.val_main_v75
  generalize val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = X
  rw [truncf_id, truncf_id, extf_id]
  rfl

/-- The residual input of the second region is the first region's output. -/
theorem v52_keep : V5 (F := Ideal) m ρ c main_v52 = W4 (F := Ideal) m ρ c (Proc.devRef .tc main_v52) := by
  show StableHlo.after hostOps1 (W4 m ρ c) (Proc.devRef .tc main_v52) = _
  after_results_simp

/-- The transposed left weights of layer 1. -/
theorem v71_eq : (V5 (F := Ideal) m ρ c main_v71 : A2 128 128) = val_main_v83 (F := Ideal) (m ((c : Thread nD τ).loc main_arg2)) := by
  show StableHlo.after hostOps1 (W4 m ρ c) (Proc.devRef .tc main_v71) = _
  after_results_simp
  rw [w4_arg2 m ρ c]
  rfl

/-- The transposed right weights of layer 1. -/
theorem v75_eq : (V5 (F := Ideal) m ρ c main_v75 : A2 128 128) = val_main_v92 (F := Ideal) (m ((c : Thread nD τ).loc main_arg4)) := by
  show StableHlo.after hostOps1 (W4 m ρ c) (Proc.devRef .tc main_v75) = _
  after_results_simp
  rw [w4_arg4 m ρ c]
  rfl

/-- The folded scale of layer 1 is `g·rs`. -/
theorem v77_eq : (V5 (F := Ideal) m ρ c main_v77 : A1 128)
    = fun i => val_main_v109 (F := Ideal) (m ((c : Thread nD τ).loc main_arg5)) i * val_main_v104 (F := Ideal) (m ((c : Thread nD τ).loc main_arg8)) i := by
  show StableHlo.after hostOps1 (W4 m ρ c) (Proc.devRef .tc main_v77) = _
  after_results_simp
  rw [w4_v19 m ρ c]
  rfl

/-- The folded shift of layer 1 is `bb + (bl − mu)·(g·rs)`. -/
theorem v79_eq : (V5 (F := Ideal) m ρ c main_v79 : A1 128)
    = fun i => val_main_v114 (F := Ideal) (m ((c : Thread nD τ).loc main_arg6)) i
        + (val_main_v86 (F := Ideal) (m ((c : Thread nD τ).loc main_arg3)) i - val_main_v96 (F := Ideal) (m ((c : Thread nD τ).loc main_arg7)) i)
          * (val_main_v109 (F := Ideal) (m ((c : Thread nD τ).loc main_arg5)) i * val_main_v104 (F := Ideal) (m ((c : Thread nD τ).loc main_arg8)) i) := by
  show StableHlo.after hostOps1 (W4 m ρ c) (Proc.devRef .tc main_v79) = _
  after_results_simp
  rw [w4_v22 m ρ c]
  rfl

end Cert.KernelIdeal.HostValue1
-- ==== Proof.KernelHost2.lean ====
/-
  The third region's input arrays are the reference's stages.

  Before its third region the kernel program runs the same host operations as the reference's third layer on the second
  layer's output X2: the mean aggregation of X2 over the edges (gather, scatter-add, scaling by the inverse in-degrees),
  the transposed third slices of the two weight stacks, the transposed classifier weights, and the third rows of the
  folded scale and shift.  Its roundings to and from the narrow float type are the identity on extended reals, and
  slicing a row out of an entrywise combination of stacks is the entrywise combination of the rows.
-/
import proofs.«170960_j60790967107705_2_alg».proof.Proof.KernelCarry

set_option maxRecDepth 16384
set_option maxHeartbeats 1000000

noncomputable section

namespace Cert.KernelIdeal.HostValue

open Cert.KernelIdeal Cert.KernelIdeal.Gen Cert.Sage Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- Rounding to a narrower float type is the identity on extended reals. -/
theorem truncf_ideal {s : Shape} {φ : FTy} (ψ : FTy) (x : FVec Ideal s φ) (h : ψ.bits < φ.bits) :
    (truncf ψ x h : s.Idx → EReal) = x := rfl

/-- Widening to a larger float type is the identity on extended reals. -/
theorem extf_ideal {s : Shape} {φ : FTy} (ψ : FTy) (x : FVec Ideal s φ) (h : φ.bits < ψ.bits) :
    (extf ψ x h : s.Idx → EReal) = x := rfl

/-- The aggregation of the second layer's output over the edges, as the third region reads it. -/
theorem v95_eq (hX : (W6 (F := Ideal) m ρ c (Proc.devRef .tc main_v80) : A2 100000 128)
      = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    (V7 (F := Ideal) m ρ c main_v95 : A2 100000 128) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W6 m ρ c) (Proc.devRef .tc main_v95) = _
  after_results_simp
  rw [w6_v1, w6_v3, w6_v15, hX]
  unfold Cert.ReferenceIdeal.Read.val_main_v131 Cert.ReferenceIdeal.Read.val_main_v130 Cert.ReferenceIdeal.Read.val_main_v129 Cert.ReferenceIdeal.Read.val_main_v128 Cert.ReferenceIdeal.Read.val_main_v127 Cert.ReferenceIdeal.Read.val_main_v126 Cert.ReferenceIdeal.Read.val_main_v125 Cert.ReferenceIdeal.Read.val_main_v124 Cert.ReferenceIdeal.Read.val_main_v123 Cert.ReferenceIdeal.Read.val_main_v122 Cert.ReferenceIdeal.Read.val_main_v121 Cert.ReferenceIdeal.Read.val_main_v120 Cert.ReferenceIdeal.Read.val_main_cst_14 Cert.ReferenceIdeal.Read.val_main_c_12 Cert.ReferenceIdeal.Read.val_main_c_13
  generalize Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = X
  generalize Cert.ReferenceIdeal.Read.val_main_v1 (F := Ideal) (m ((c : Thread nD τ).loc main_arg1)) = E1
  generalize Cert.ReferenceIdeal.Read.val_main_v3 (F := Ideal) (m ((c : Thread nD τ).loc main_arg1)) = E3
  generalize Cert.ReferenceIdeal.Read.val_main_v15 (F := Ideal) (m ((c : Thread nD τ).loc main_arg1)) = D
  simp only [truncf_ideal, extf_ideal]
  rfl

/-- The host operations before the third region do not write the second layer's output. -/
theorem v80_keep : V7 (F := Ideal) m ρ c main_v80 = W6 (F := Ideal) m ρ c (Proc.devRef .tc main_v80) := by
  show StableHlo.after hostOps2 (W6 m ρ c) (Proc.devRef .tc main_v80) = _
  after_results_simp

/-- The transposed third slice of the left weight stack. -/
theorem v99_eq : (V7 (F := Ideal) m ρ c main_v99 : A2 128 128) = Cert.ReferenceIdeal.Read.val_main_v134 (F := Ideal) (m ((c : Thread nD τ).loc main_arg2)) := by
  show StableHlo.after hostOps2 (W6 m ρ c) (Proc.devRef .tc main_v99) = _
  after_results_simp
  rw [w6_arg2]
  rfl

/-- The transposed third slice of the right weight stack. -/
theorem v103_eq : (V7 (F := Ideal) m ρ c main_v103 : A2 128 128) = Cert.ReferenceIdeal.Read.val_main_v143 (F := Ideal) (m ((c : Thread nD τ).loc main_arg4)) := by
  show StableHlo.after hostOps2 (W6 m ρ c) (Proc.devRef .tc main_v103) = _
  after_results_simp
  rw [w6_arg4]
  rfl

/-- The transposed classifier weights. -/
theorem v109_eq : (V7 (F := Ideal) m ρ c main_v109 : A2 128 2) = Cert.ReferenceIdeal.Read.val_main_v171 (F := Ideal) (m ((c : Thread nD τ).loc main_arg10)) := by
  show StableHlo.after hostOps2 (W6 m ρ c) (Proc.devRef .tc main_v109) = _
  after_results_simp
  rw [w6_arg10]
  rfl

/-- The classifier bias. -/
theorem arg11_eq : (V7 (F := Ideal) m ρ c main_arg11 : A1 2) = (m ((c : Thread nD τ).loc main_arg11)) := by
  show StableHlo.after hostOps2 (W6 m ρ c) (Proc.devRef .tc main_arg11) = _
  after_results_simp
  exact w6_arg11 m ρ c

/-- The third row of the folded scale is the third scale row times the third reciprocal square root, entry by entry. -/
theorem v105_eq : (V7 (F := Ideal) m ρ c main_v105 : A1 128)
    = fun i => Cert.ReferenceIdeal.Read.val_main_v160 (F := Ideal) (m ((c : Thread nD τ).loc main_arg5)) i * Cert.ReferenceIdeal.Read.val_main_v155 (F := Ideal) (m ((c : Thread nD τ).loc main_arg8)) i := by
  show StableHlo.after hostOps2 (W6 m ρ c) (Proc.devRef .tc main_v105) = _
  after_results_simp
  rw [w6_v19]
  rfl

/-- The third row of the folded shift, entry by entry. -/
theorem v107_eq : (V7 (F := Ideal) m ρ c main_v107 : A1 128)
    = fun i => Cert.ReferenceIdeal.Read.val_main_v165 (F := Ideal) (m ((c : Thread nD τ).loc main_arg6)) i
        + (Cert.ReferenceIdeal.Read.val_main_v137 (F := Ideal) (m ((c : Thread nD τ).loc main_arg3)) i - Cert.ReferenceIdeal.Read.val_main_v147 (F := Ideal) (m ((c : Thread nD τ).loc main_arg7)) i)
          * (Cert.ReferenceIdeal.Read.val_main_v160 (F := Ideal) (m ((c : Thread nD τ).loc main_arg5)) i * Cert.ReferenceIdeal.Read.val_main_v155 (F := Ideal) (m ((c : Thread nD τ).loc main_arg8)) i) := by
  show StableHlo.after hostOps2 (W6 m ρ c) (Proc.devRef .tc main_v107) = _
  after_results_simp
  rw [w6_v22]
  rfl

end Cert.KernelIdeal.HostValue
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Region0.lean ====
/-
  What the first region leaves in its output array: the first layer, entry by entry, of the arrays it finds.

  The region's grid has 25 points; point `t` reads rows 4000·t … 4000·t + 3999 of the aggregated features and of the
  node features, the whole of the three weight matrices and the two vectors, and writes the same rows of the output.
  At a row `p` of the block and a feature `j` the body's value is the folded layer (LayerSpec) of those blocks: three
  matrix products into zero accumulators read as sums over the contracted axis, the two vectors broadcast along the
  rows. The 25 blocks of 4000 rows tile the 100000 rows, so the array after the region is the layer of the whole
  arrays.
-/
import proofs.«170960_j60790967107705_2_alg».proof.Proof.Gen.KernelIdeal.Frame
import proofs.«170960_j60790967107705_2_alg».proof.Proof.LayerSpec
import proofs.«170960_j60790967107705_2_alg».proof.Proof.LibMatmulNN
import Idealize.ShloMosaic.Lib.Pipeline.Value
import Idealize.ShloMosaic.Lib.ValueLayout

set_option maxRecDepth 16384

noncomputable section

open scoped BigOperators

namespace Cert.KernelIdeal.RegionValue

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The first region's body at row `p` of its block and feature `j`. -/
theorem pay0_apply (x0 : FVec Ideal S4000x128 .bf16) (x1 : FVec Ideal S4000x128 .f32) (x2 x3 : FVec Ideal S128x128 .bf16)
    (x4 x5 : FVec Ideal S128 .f32) (x6 : FVec Ideal S128x128 .bf16) (p : Fin 4000) (j : Fin 128) :
    k0_pay1 (F := Ideal) x0 x1 x2 x3 x4 x5 x6 (ix2 p j)
      = max (((∑ k : Fin 128, x0 (ix2 p k) * x2 (ix2 k j)) + ∑ k : Fin 128, x1 (ix2 p k) * x3 (ix2 k j)) * x4 (ix1 j)
          + x5 (ix1 j)) (Ideal.ofBits .f32 0x00000000#32)
        + ∑ k : Fin 128, x1 (ix2 p k) * x6 (ix2 k j) := by
  unfold k0_pay1
  simp only [shapeCast_self]
  rw [addf_apply, maximumf_apply, addf_apply, mulf_apply, addf_apply, broadcast_apply,
    Cert.LibMatmulNN.matmul_zero_apply' dot_S4000x128_S128x128_S4000x128_1_0_0_1_n_n rfl rfl rfl rfl rfl rfl none x0 x2 p j,
    Cert.LibMatmulNN.matmul_zero_apply' dot_S4000x128_S128x128_S4000x128_1_0_0_1_n_n rfl rfl rfl rfl rfl rfl none _ x3 p j,
    Cert.LibMatmulNN.matmul_zero_apply' dot_S4000x128_S128x128_S4000x128_1_0_0_1_n_n rfl rfl rfl rfl rfl rfl none _ x6 p j,
    broadcastTo_1b_ab_apply, broadcastTo_1b_ab_apply, shapeCast_a_1a_apply, shapeCast_a_1a_apply]
  rfl

variable (V : (c : Dev nD) → (b : Ref sig .tc) → Buf (Elt Ideal) ((c : Thread nD τ).loc b))

/-- The printed index maps over the grid: the two row-tiled inputs and the output are at block row `t`, block column 0;
    the five whole operands at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0 ∧ t.val < 25 :=
  (by decide +kernel : ∀ t : Fin grid0.N, _)

/-- Every block row is some point's. -/
theorem idx_onto0 : ∀ q : Fin 25, ∃ t : Fin cfg0.N, win0_7.index t (0 : Fin 2) = q.val ∧ win0_7.index t (1 : Fin 2) = 0 :=
  (by decide +kernel : ∀ q : Fin 25, ∃ t : Fin grid0.N, win0_7.index t (0 : Fin 2) = q.val ∧ win0_7.index t (1 : Fin 2) = 0)

/-- WHAT POINT `t` WRITES BACK is block `t` of the first layer of the arrays the region finds. -/
theorem flushed0 (c : Dev nD) (t : Fin cfg0.N) :
    (dat0 (F := Ideal) V c).flushed 7 t = ((cfg0.win 7).blk t).view.read (Elt Ideal)
      (layerProj (V c main_v37) (V c main_arg0) (V c main_v41) (V c main_v45) (V c main_v47) (V c main_v49) (V c main_v51)) := by
  show (cfg0.win 7).cut (grid0.coords t) ((dat0 (F := Ideal) V c).after 7 t) = _
  rw [after0_7]
  unfold out0_7
  rw [View.canon_unit_zero hz2]
  simp only [View.ld_unit_zero (S := S4000x128) hz2, View.ld_unit_zero (S := S128x128) hz2, View.ld_unit_zero (S := S128) hz1]
  obtain ⟨e00, e01, e10, e11, e20, e21, e30, e31, e40, e50, e60, e61, e70, e71, ht⟩ := idx_facts0 t
  funext y
  obtain ⟨p, j, rfl⟩ : ∃ (p : Fin 4000) (j : Fin 128), y = ix2 p j := ⟨y 0, y 1, eq_ix2 y⟩
  refine (pay0_apply _ _ _ _ _ _ _ p j).trans ?_
  have hrow : t.val * 4000 + p.val < 100000 := by have := p.isLt; omega
  have b0 : ∀ k : Fin 128, iblk0 V c 0 t (ix2 p k) = V c main_v37 (ix2 ⟨t.val * 4000 + p.val, hrow⟩ k) := fun k => by
    show V c main_v37 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have b1 : ∀ k : Fin 128, iblk0 V c 1 t (ix2 p k) = V c main_arg0 (ix2 ⟨t.val * 4000 + p.val, hrow⟩ k) := fun k => by
    show V c main_arg0 (((cfg0.win 1).blk t).view.emb (ix2 p k)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  have b2 : ∀ (k j' : Fin 128), iblk0 V c 2 t (ix2 k j') = V c main_v41 (ix2 k j') := fun k j' => by
    show V c main_v41 (((cfg0.win 2).blk t).view.emb (ix2 k j')) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * j'.val = j'.val; omega
  have b3 : ∀ (k j' : Fin 128), iblk0 V c 3 t (ix2 k j') = V c main_v45 (ix2 k j') := fun k j' => by
    show V c main_v45 (((cfg0.win 3).blk t).view.emb (ix2 k j')) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * j'.val = j'.val; omega
  have b4 : iblk0 V c 4 t (ix1 j) = V c main_v47 (ix1 j) := by
    show V c main_v47 (((cfg0.win 4).blk t).view.emb (ix1 j)) = _
    refine congrArg _ (funext fun a => Fin.ext ?_)
    match a with
    | ⟨0, _⟩ => show win0_4.index t (0 : Fin 1) * 128 + 1 * j.val = j.val; omega
  have b5 : iblk0 V c 5 t (ix1 j) = V c main_v49 (ix1 j) := by
    show V c main_v49 (((cfg0.win 5).blk t).view.emb (ix1 j)) = _
    refine congrArg _ (funext fun a => Fin.ext ?_)
    match a with
    | ⟨0, _⟩ => show win0_5.index t (0 : Fin 1) * 128 + 1 * j.val = j.val; omega
  have b6 : ∀ (k j' : Fin 128), iblk0 V c 6 t (ix2 k j') = V c main_v51 (ix2 k j') := fun k j' => by
    show V c main_v51 (((cfg0.win 6).blk t).view.emb (ix2 k j')) = _
    refine congrArg _ (funext fun a => Fin.ext ?_)
    match a with
    | ⟨0, _⟩ => show win0_6.index t (0 : Fin 2) * 128 + 1 * k.val = k.val; omega
    | ⟨1, _⟩ => show win0_6.index t (1 : Fin 2) * 128 + 1 * j'.val = j'.val; omega
  have b7 : ((cfg0.win 7).blk t).view.emb (ix2 p j) = ix2 ⟨t.val * 4000 + p.val, hrow⟩ j := by
    funext a; apply Fin.ext
    match a with
    | ⟨0, _⟩ => show win0_7.index t (0 : Fin 2) * 4000 + 1 * p.val = t.val * 4000 + p.val; omega
    | ⟨1, _⟩ => show win0_7.index t (1 : Fin 2) * 128 + 1 * j.val = j.val; omega
  show _ = layerProj _ _ _ _ _ _ _ (((cfg0.win 7).blk t).view.emb (ix2 p j))
  rw [b7, layerProj_apply]
  unfold hfold
  simp only [b0, b1, b2, b3, b4, b5, b6]

/-- An index of the array is in point `t`'s block iff each coordinate is in the block's range on its axis. -/
theorem mem_blk0 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v52).slice (win0_7.rect t)).set ↔ _
  rw [View.set_slice_whole, Rect.mem_set_unit]
  exact Iff.rfl

/-- The 25 blocks of 4000 rows cover the 100000 rows. -/
theorem cover0 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, q0, q1⟩ := idx_onto0 ⟨(i 0).val / 4000, by omega⟩
  refine ⟨t, flush0_7 t, ?_⟩
  rw [mem_blk0]
  intro a
  match a with
  | ⟨0, _⟩ => show win0_7.index t (0 : Fin 2) * 4000 ≤ (i 0).val ∧ (i 0).val < win0_7.index t (0 : Fin 2) * 4000 + 4000; simp only [] at q0; omega
  | ⟨1, _⟩ => show win0_7.index t (1 : Fin 2) * 128 ≤ (i 1).val ∧ (i 1).val < win0_7.index t (1 : Fin 2) * 128 + 128; omega

/-- THE ARRAY after the first region: the first layer of the arrays the region finds. -/
theorem arr0 (c : Dev nD) : (dat0 (F := Ideal) V c).arrAt 7 cfg0.N
    = layerProj (V c main_v37) (V c main_arg0) (V c main_v41) (V c main_v45) (V c main_v47) (V c main_v49) (V c main_v51) :=
  (dat0 (F := Ideal) V c).arrAt_eq_of_cover 7 _ (fun t _ => flushed0 V c t) cover0

end Cert.KernelIdeal.RegionValue
-- ==== Proof.Region1.lean ====
/-
  What the second region leaves in its output array: the middle layer, entry by entry, of the arrays it finds.

  As in the first region the grid has 25 points and point `t` works on rows 4000·t … 4000·t + 3999; the body differs
  only in its last step, which adds the block of node features itself instead of a third matrix product. The blocks
  tile the rows, so the array after the region is the middle layer (LayerSpec) of the whole arrays.
-/
import proofs.«170960_j60790967107705_2_alg».proof.Proof.Gen.KernelIdeal.Frame
import proofs.«170960_j60790967107705_2_alg».proof.Proof.LayerSpec
import proofs.«170960_j60790967107705_2_alg».proof.Proof.LibMatmulNN
import Idealize.ShloMosaic.Lib.Pipeline.Value
import Idealize.ShloMosaic.Lib.ValueLayout

set_option maxRecDepth 16384

noncomputable section

open scoped BigOperators

namespace Cert.KernelIdeal.RegionValue1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2' : (![0, 0] : Fin 2 → Nat) = fun _ => 0 := funext fun a => by fin_cases a <;> rfl
theorem hz1' : (![0] : Fin 1 → Nat) = fun _ => 0 := funext fun a => by fin_cases a; rfl

/-- The second region's body at row `p` of its block and feature `j`. -/
theorem pay1_apply (x0 : FVec Ideal S4000x128 .bf16) (x1 : FVec Ideal S4000x128 .f32) (x2 x3 : FVec Ideal S128x128 .bf16)
    (x4 x5 : FVec Ideal S128 .f32) (p : Fin 4000) (j : Fin 128) :
    k1_pay1 (F := Ideal) x0 x1 x2 x3 x4 x5 (ix2 p j)
      = max (((∑ k : Fin 128, x0 (ix2 p k) * x2 (ix2 k j)) + ∑ k : Fin 128, x1 (ix2 p k) * x3 (ix2 k j)) * x4 (ix1 j)
          + x5 (ix1 j)) (Ideal.ofBits .f32 0x00000000#32)
        + x1 (ix2 p j) := by
  unfold k1_pay1
  simp only [shapeCast_self]
  rw [addf_apply, maximumf_apply, addf_apply, mulf_apply, addf_apply, broadcast_apply,
    Cert.LibMatmulNN.matmul_zero_apply' dot_S4000x128_S128x128_S4000x128_1_0_0_1_n_n rfl rfl rfl rfl rfl rfl none x0 x2 p j,
    Cert.LibMatmulNN.matmul_zero_apply' dot_S4000x128_S128x128_S4000x128_1_0_0_1_n_n rfl rfl rfl rfl rfl rfl none _ x3 p j,
    broadcastTo_1b_ab_apply, broadcastTo_1b_ab_apply, shapeCast_a_1a_apply, shapeCast_a_1a_apply]
  rfl

variable (V : (c : Dev nD) → (b : Ref sig .tc) → Buf (Elt Ideal) ((c : Thread nD τ).loc b))

/-- The printed index maps over the grid: the two row-tiled inputs and the output are at block row `t`, block column 0;
    the five whole operands at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 ∧ t.val < 25 :=
  (by decide +kernel : ∀ t : Fin grid1.N, _)

/-- Every block row is some point's. -/
theorem idx_onto1 : ∀ q : Fin 25, ∃ t : Fin cfg1.N, win1_6.index t (0 : Fin 2) = q.val ∧ win1_6.index t (1 : Fin 2) = 0 :=
  (by decide +kernel : ∀ q : Fin 25, ∃ t : Fin grid1.N, win1_6.index t (0 : Fin 2) = q.val ∧ win1_6.index t (1 : Fin 2) = 0)

/-- WHAT POINT `t` WRITES BACK is block `t` of the middle layer of the arrays the region finds. -/
theorem flushed1 (c : Dev nD) (t : Fin cfg1.N) :
    (dat1 (F := Ideal) V c).flushed 6 t = ((cfg1.win 6).blk t).view.read (Elt Ideal)
      (layerMid (V c main_v67) (V c main_v52) (V c main_v71) (V c main_v75) (V c main_v77) (V c main_v79)) := by
  show (cfg1.win 6).cut (grid1.coords t) ((dat1 (F := Ideal) V c).after 6 t) = _
  rw [after1_6]
  unfold out1_6
  rw [View.canon_unit_zero hz2']
  simp only [View.ld_unit_zero (S := S4000x128) hz2', View.ld_unit_zero (S := S128x128) hz2', View.ld_unit_zero (S := S128) hz1']
  obtain ⟨e00, e01, e10, e11, e20, e21, e30, e31, e40, e50, e60, e61, ht⟩ := idx_facts1 t
  funext y
  obtain ⟨p, j, rfl⟩ : ∃ (p : Fin 4000) (j : Fin 128), y = ix2 p j := ⟨y 0, y 1, eq_ix2 y⟩
  refine (pay1_apply _ _ _ _ _ _ p j).trans ?_
  have hrow : t.val * 4000 + p.val < 100000 := by have := p.isLt; omega
  have b0 : ∀ k : Fin 128, iblk1 V c 0 t (ix2 p k) = V c main_v67 (ix2 ⟨t.val * 4000 + p.val, hrow⟩ k) := fun k => by
    show V c main_v67 (((cfg1.win 0).blk t).view.emb (ix2 p k)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have b1 : ∀ k : Fin 128, iblk1 V c 1 t (ix2 p k) = V c main_v52 (ix2 ⟨t.val * 4000 + p.val, hrow⟩ k) := fun k => by
    show V c main_v52 (((cfg1.win 1).blk t).view.emb (ix2 p k)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  have b2 : ∀ (k j' : Fin 128), iblk1 V c 2 t (ix2 k j') = V c main_v71 (ix2 k j') := fun k j' => by
    show V c main_v71 (((cfg1.win 2).blk t).view.emb (ix2 k j')) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * j'.val = j'.val; omega
  have b3 : ∀ (k j' : Fin 128), iblk1 V c 3 t (ix2 k j') = V c main_v75 (ix2 k j') := fun k j' => by
    show V c main_v75 (((cfg1.win 3).blk t).view.emb (ix2 k j')) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * j'.val = j'.val; omega
  have b4 : iblk1 V c 4 t (ix1 j) = V c main_v77 (ix1 j) := by
    show V c main_v77 (((cfg1.win 4).blk t).view.emb (ix1 j)) = _
    refine congrArg _ (funext fun a => Fin.ext ?_)
    match a with
    | ⟨0, _⟩ => show win1_4.index t (0 : Fin 1) * 128 + 1 * j.val = j.val; omega
  have b5 : iblk1 V c 5 t (ix1 j) = V c main_v79 (ix1 j) := by
    show V c main_v79 (((cfg1.win 5).blk t).view.emb (ix1 j)) = _
    refine congrArg _ (funext fun a => Fin.ext ?_)
    match a with
    | ⟨0, _⟩ => show win1_5.index t (0 : Fin 1) * 128 + 1 * j.val = j.val; omega
  have b7 : ((cfg1.win 6).blk t).view.emb (ix2 p j) = ix2 ⟨t.val * 4000 + p.val, hrow⟩ j := by
    funext a; apply Fin.ext
    match a with
    | ⟨0, _⟩ => show win1_6.index t (0 : Fin 2) * 4000 + 1 * p.val = t.val * 4000 + p.val; omega
    | ⟨1, _⟩ => show win1_6.index t (1 : Fin 2) * 128 + 1 * j.val = j.val; omega
  show _ = layerMid _ _ _ _ _ _ (((cfg1.win 6).blk t).view.emb (ix2 p j))
  rw [b7, layerMid_apply]
  unfold hfold
  simp only [b0, b1, b2, b3, b4, b5]

/-- An index of the array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v80).slice (win1_6.rect t)).set ↔ _
  rw [View.set_slice_whole, Rect.mem_set_unit]
  exact Iff.rfl

/-- The 25 blocks of 4000 rows cover the 100000 rows. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, q0, q1⟩ := idx_onto1 ⟨(i 0).val / 4000, by omega⟩
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; simp only [] at q0; omega
  | ⟨1, _⟩ => show win1_6.index t (1 : Fin 2) * 128 ≤ (i 1).val ∧ (i 1).val < win1_6.index t (1 : Fin 2) * 128 + 128; omega

/-- THE ARRAY after the second region: the middle layer of the arrays the region finds. -/
theorem arr1 (c : Dev nD) : (dat1 (F := Ideal) V c).arrAt 6 cfg1.N
    = layerMid (V c main_v67) (V c main_v52) (V c main_v71) (V c main_v75) (V c main_v77) (V c main_v79) :=
  (dat1 (F := Ideal) V c).arrAt_eq_of_cover 6 _ (fun t _ => flushed1 V c t) cover1

end Cert.KernelIdeal.RegionValue1
-- ==== Proof.Region2.lean ====
/-
  What the third region leaves in its output array: the last layer with the classifier, entry by entry, of the
  arrays it finds.

  The grid has 25 points; point `t` reads rows 4000·t … 4000·t + 3999 of the aggregated features and of the node
  features, the whole weight matrices, vectors, the 128 × 2 classifier matrix and its bias, and writes the same rows
  of the 100000 × 2 output. At a row `p` and a class `q` the body's value is the sum over the features `j` of the
  middle layer's value at (p, j) times the classifier's (j, q), plus the bias at q. The blocks tile the rows.
-/
import proofs.«170960_j60790967107705_2_alg».proof.Proof.Gen.KernelIdeal.Frame
import proofs.«170960_j60790967107705_2_alg».proof.Proof.LayerSpec
import proofs.«170960_j60790967107705_2_alg».proof.Proof.LibMatmulNN
import Idealize.ShloMosaic.Lib.Pipeline.Value
import Idealize.ShloMosaic.Lib.ValueLayout

set_option maxRecDepth 16384

noncomputable section

open scoped BigOperators

namespace Cert.KernelIdeal.RegionValue2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The third region's body at row `p` of its block and class `q`. -/
theorem pay2_apply (x0 : FVec Ideal S4000x128 .bf16) (x1 : FVec Ideal S4000x128 .f32) (x2 x3 : FVec Ideal S128x128 .bf16)
    (x4 x5 : FVec Ideal S128 .f32) (x6 : FVec Ideal S128x2 .bf16) (x7 : FVec Ideal S2 .f32) (p : Fin 4000) (q : Fin 2) :
    k2_pay1 (F := Ideal) x0 x1 x2 x3 x4 x5 x6 x7 (ix2 p q)
      = (∑ j : Fin 128, (max (((∑ k : Fin 128, x0 (ix2 p k) * x2 (ix2 k j)) + ∑ k : Fin 128, x1 (ix2 p k) * x3 (ix2 k j)) * x4 (ix1 j)
          + x5 (ix1 j)) (Ideal.ofBits .f32 0x00000000#32) + x1 (ix2 p j)) * x6 (ix2 j q))
        + x7 (ix1 q) := by
  unfold k2_pay1
  simp only [shapeCast_self]
  rw [addf_apply,
    Cert.LibMatmulNN.matmul_zero_apply' dot_S4000x128_S128x2_S4000x2_1_0_0_1_n_n rfl rfl rfl rfl rfl rfl none _ x6 p q,
    broadcastTo_1b_ab_apply, shapeCast_a_1a_apply]
  refine congrArg (· + x7 (ix1 q)) (Finset.sum_congr rfl fun j _ => congrArg (· * x6 (ix2 j q)) ?_)
  rw [truncf_apply, addf_apply, maximumf_apply, addf_apply, mulf_apply, addf_apply, broadcast_apply,
    Cert.LibMatmulNN.matmul_zero_apply' dot_S4000x128_S128x128_S4000x128_1_0_0_1_n_n rfl rfl rfl rfl rfl rfl none x0 x2 p j,
    Cert.LibMatmulNN.matmul_zero_apply' dot_S4000x128_S128x128_S4000x128_1_0_0_1_n_n rfl rfl rfl rfl rfl rfl none _ x3 p j,
    broadcastTo_1b_ab_apply, broadcastTo_1b_ab_apply, shapeCast_a_1a_apply, shapeCast_a_1a_apply]
  rfl

variable (V : (c : Dev nD) → (b : Ref sig .tc) → Buf (Elt Ideal) ((c : Thread nD τ).loc b))

/-- The printed index maps over the grid: the two row-tiled inputs and the output are at block row `t`, block column 0;
    the seven whole operands at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 ∧ t.val < 25 :=
  (by decide +kernel : ∀ t : Fin grid2.N, _)

/-- Every block row is some point's. -/
theorem idx_onto2 : ∀ q : Fin 25, ∃ t : Fin cfg2.N, win2_8.index t (0 : Fin 2) = q.val ∧ win2_8.index t (1 : Fin 2) = 0 :=
  (by decide +kernel : ∀ q : Fin 25, ∃ t : Fin grid2.N, win2_8.index t (0 : Fin 2) = q.val ∧ win2_8.index t (1 : Fin 2) = 0)

/-- WHAT POINT `t` WRITES BACK is block `t` of the last layer of the arrays the region finds. -/
theorem flushed2 (c : Dev nD) (t : Fin cfg2.N) :
    (dat2 (F := Ideal) V c).flushed 8 t = ((cfg2.win 8).blk t).view.read (Elt Ideal)
      (layerFinal (V c main_v95) (V c main_v80) (V c main_v99) (V c main_v103) (V c main_v105) (V c main_v107) (V c main_v109) (V c main_arg11)) := by
  show (cfg2.win 8).cut (grid2.coords t) ((dat2 (F := Ideal) V c).after 8 t) = _
  rw [after2_8]
  unfold out2_8
  rw [View.canon_unit_zero hz2]
  simp only [View.ld_unit_zero (S := S4000x128) hz2, View.ld_unit_zero (S := S128x128) hz2, View.ld_unit_zero (S := S128) hz1,
    View.ld_unit_zero (S := S128x2) hz2, View.ld_unit_zero (S := S2) hz1]
  obtain ⟨e00, e01, e10, e11, e20, e21, e30, e31, e40, e50, e60, e61, e70, e80, e81, ht⟩ := idx_facts2 t
  funext y
  obtain ⟨p, q, rfl⟩ : ∃ (p : Fin 4000) (q : Fin 2), y = ix2 p q := ⟨y 0, y 1, eq_ix2 y⟩
  refine (pay2_apply _ _ _ _ _ _ _ _ p q).trans ?_
  have hrow : t.val * 4000 + p.val < 100000 := by have := p.isLt; omega
  have b0 : ∀ k : Fin 128, iblk2 V c 0 t (ix2 p k) = V c main_v95 (ix2 ⟨t.val * 4000 + p.val, hrow⟩ k) := fun k => by
    show V c main_v95 (((cfg2.win 0).blk t).view.emb (ix2 p k)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  have b1 : ∀ k : Fin 128, iblk2 V c 1 t (ix2 p k) = V c main_v80 (ix2 ⟨t.val * 4000 + p.val, hrow⟩ k) := fun k => by
    show V c main_v80 (((cfg2.win 1).blk t).view.emb (ix2 p k)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 128 + 1 * k.val = k.val; omega
  have b2 : ∀ (k j' : Fin 128), iblk2 V c 2 t (ix2 k j') = V c main_v99 (ix2 k j') := fun k j' => by
    show V c main_v99 (((cfg2.win 2).blk t).view.emb (ix2 k j')) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * j'.val = j'.val; omega
  have b3 : ∀ (k j' : Fin 128), iblk2 V c 3 t (ix2 k j') = V c main_v103 (ix2 k j') := fun k j' => by
    show V c main_v103 (((cfg2.win 3).blk t).view.emb (ix2 k j')) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * j'.val = j'.val; omega
  have b4 : ∀ j : Fin 128, iblk2 V c 4 t (ix1 j) = V c main_v105 (ix1 j) := fun j => by
    show V c main_v105 (((cfg2.win 4).blk t).view.emb (ix1 j)) = _
    refine congrArg _ (funext fun a => Fin.ext ?_)
    match a with
    | ⟨0, _⟩ => show win2_4.index t (0 : Fin 1) * 128 + 1 * j.val = j.val; omega
  have b5 : ∀ j : Fin 128, iblk2 V c 5 t (ix1 j) = V c main_v107 (ix1 j) := fun j => by
    show V c main_v107 (((cfg2.win 5).blk t).view.emb (ix1 j)) = _
    refine congrArg _ (funext fun a => Fin.ext ?_)
    match a with
    | ⟨0, _⟩ => show win2_5.index t (0 : Fin 1) * 128 + 1 * j.val = j.val; omega
  have b6 : ∀ (j : Fin 128), iblk2 V c 6 t (ix2 j q) = V c main_v109 (ix2 j q) := fun j => by
    show V c main_v109 (((cfg2.win 6).blk t).view.emb (ix2 j q)) = _
    refine congrArg _ (funext fun a => Fin.ext ?_)
    match a with
    | ⟨0, _⟩ => show win2_6.index t (0 : Fin 2) * 128 + 1 * j.val = j.val; omega
    | ⟨1, _⟩ => show win2_6.index t (1 : Fin 2) * 2 + 1 * q.val = q.val; omega
  have b7 : iblk2 V c 7 t (ix1 q) = V c main_arg11 (ix1 q) := by
    show V c main_arg11 (((cfg2.win 7).blk t).view.emb (ix1 q)) = _
    refine congrArg _ (funext fun a => Fin.ext ?_)
    match a with
    | ⟨0, _⟩ => show win2_7.index t (0 : Fin 1) * 2 + 1 * q.val = q.val; omega
  have b8 : ((cfg2.win 8).blk t).view.emb (ix2 p q) = ix2 ⟨t.val * 4000 + p.val, hrow⟩ q := by
    funext a; apply Fin.ext
    match a with
    | ⟨0, _⟩ => show win2_8.index t (0 : Fin 2) * 4000 + 1 * p.val = t.val * 4000 + p.val; omega
    | ⟨1, _⟩ => show win2_8.index t (1 : Fin 2) * 2 + 1 * q.val = q.val; omega
  show _ = layerFinal _ _ _ _ _ _ _ _ (((cfg2.win 8).blk t).view.emb (ix2 p q))
  rw [b8, layerFinal_apply]
  unfold hfold
  simp only [b0, b1, b2, b3, b4, b5, b6, b7]

/-- An index of the array is in point `t`'s block iff each coordinate is in the block's range on its axis. -/
theorem mem_blk2 (t : Fin cfg2.N) (i : S100000x2.Idx) :
    i ∈ ((cfg2.win 8).blk t).view.set ↔ ∀ a : Fin 2, win2_8.index t a * S4000x2.size a ≤ (i a).val ∧ (i a).val < win2_8.index t a * S4000x2.size a + S4000x2.size a := by
  show i ∈ ((View.whole main_v110).slice (win2_8.rect t)).set ↔ _
  rw [View.set_slice_whole, Rect.mem_set_unit]
  exact Iff.rfl

/-- The 25 blocks of 4000 rows cover the 100000 rows. -/
theorem cover2 (i : S100000x2.Idx) :
    ∃ t : Fin cfg2.N, (cfg2.win 8).flush t = true ∧ i ∈ ((cfg2.win 8).blk t).view.set := by
  have hi0 : (i 0).val < 100000 := (i 0).isLt
  have hi1 : (i 1).val < 2 := (i 1).isLt
  obtain ⟨t, q0, q1⟩ := idx_onto2 ⟨(i 0).val / 4000, by omega⟩
  refine ⟨t, flush2_8 t, ?_⟩
  rw [mem_blk2]
  intro a
  match a with
  | ⟨0, _⟩ => show win2_8.index t (0 : Fin 2) * 4000 ≤ (i 0).val ∧ (i 0).val < win2_8.index t (0 : Fin 2) * 4000 + 4000; simp only [] at q0; omega
  | ⟨1, _⟩ => show win2_8.index t (1 : Fin 2) * 2 ≤ (i 1).val ∧ (i 1).val < win2_8.index t (1 : Fin 2) * 2 + 2; omega

/-- THE ARRAY after the third region: the last layer of the arrays the region finds. -/
theorem arr2 (c : Dev nD) : (dat2 (F := Ideal) V c).arrAt 8 cfg2.N
    = layerFinal (V c main_v95) (V c main_v80) (V c main_v99) (V c main_v103) (V c main_v105) (V c main_v107) (V c main_v109) (V c main_arg11) :=
  (dat2 (F := Ideal) V c).arrAt_eq_of_cover 8 _ (fun t _ => flushed2 V c t) cover2

end Cert.KernelIdeal.RegionValue2

end
-- ==== Proof.RefLayers.lean ====
/-
  The reference network read at an entry.

  The reference computes three layers of the same shape.  With AGG the mean aggregation of the layer's input X over the
  edges, each layer is, at row n and column j,

      max (((((Σ_k AGG[n,k]·WLT[k,j] + BL[j]) + Σ_k X[n,k]·WRT[k,j]) − MU[j]) · RS[j]) · G[j] + BB[j]) 0  +  skip[n,j],

  where WLT, WRT are transposed slices of the two weight stacks, BL, MU, G, BB are rows of the bias, running-mean, scale
  and shift stacks, and RS is the reciprocal square root of a row of the running variance plus a constant.  The skip term
  is a third product Σ_k x[n,k]·PT[k,j] in the first layer and the layer's own input afterwards.  The result is
  Σ_j X3[n,j]·CT[j,q] + b[q].

  Every broadcast, slice, reshape and transpose only re-reads an entry of its operand, so reading the program at the
  entry (n, j) reaches the named stages at the entries (n, k), (k, j) and (j).
-/
import proofs.«170960_j60790967107705_2_alg».proof.Proof.ReadP
import proofs.«170960_j60790967107705_2_alg».proof.Proof.Basics
import Idealize.ShloMosaic.Lib.ValueIdx

noncomputable section

open scoped BigOperators

namespace Cert.Sage

open Cert.ReferenceIdeal Cert.ReferenceIdeal.Read Idealize.ShloMosaic Idealize.ShloMosaic.ValueIdx

variable (x0 : (⟨S100000x128, .f32⟩ : BufTy).Contents (Elt Ideal)) (x1 : (⟨S2x600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 x6 x7 x8 : (⟨S3x128, .f32⟩ : BufTy).Contents (Elt Ideal))
  (x9 : (⟨S128x128, .f32⟩ : BufTy).Contents (Elt Ideal)) (x10 : (⟨S2x128, .f32⟩ : BufTy).Contents (Elt Ideal))
  (x11 : (⟨S2, .f32⟩ : BufTy).Contents (Elt Ideal))

/-! ## Layer 0: the non-pointwise operations at an entry -/

/-- The product of the aggregated input with the transposed left weights, at (n, j). -/
theorem dotA0 (n : Fin 100000) (j : Fin 128) :
    val_main_v31 (F := Ideal) x0 x1 x2 (ix2 n j)
      = ∑ k : Fin 128, val_main_v27 (F := Ideal) x0 x1 (ix2 n k) * val_main_v30 (F := Ideal) x2 (ix2 k j) := by
  rw [val_main_v31_apply]
  refine Finset.sum_congr rfl fun k _ => ?_
  have hl : lidx_main_v31 (ix2 n j) k = ix2 n k := funext fun a => Fin.ext (by match a with | ⟨0, _⟩ => rfl | ⟨1, _⟩ => rfl)
  have hr : ridx_main_v31 (ix2 n j) k = ix2 k j := funext fun a => Fin.ext (by match a with | ⟨0, _⟩ => rfl | ⟨1, _⟩ => rfl)
  rw [hl, hr]

/-- The product of the layer's input with the transposed right weights, at (n, j). -/
theorem dotX0 (n : Fin 100000) (j : Fin 128) :
    val_main_v40 (F := Ideal) x0 x4 (ix2 n j)
      = ∑ k : Fin 128, x0 (ix2 n k) * val_main_v39 (F := Ideal) x4 (ix2 k j) := by
  rw [val_main_v40_apply]
  refine Finset.sum_congr rfl fun k _ => ?_
  have hl : lidx_main_v40 (ix2 n j) k = ix2 n k := funext fun a => Fin.ext (by match a with | ⟨0, _⟩ => rfl | ⟨1, _⟩ => rfl)
  have hr : ridx_main_v40 (ix2 n j) k = ix2 k j := funext fun a => Fin.ext (by match a with | ⟨0, _⟩ => rfl | ⟨1, _⟩ => rfl)
  rw [hl, hr]

/-- The broadcast bias row at (n, j) is the row at j. -/
theorem bcBL0 (n : Fin 100000) (j : Fin 128) :
    val_main_v35 (F := Ideal) x3 (ix2 n j) = val_main_v33 (F := Ideal) x3 (ix1 j) := by
  rw [val_main_v35_apply, val_main_v34_apply]
  exact congrArg _ (funext fun a => Fin.ext (by match a with | ⟨0, _⟩ => rfl))

/-- The broadcast running-mean row at (n, j) is the row at j. -/
theorem bcMU0 (n : Fin 100000) (j : Fin 128) :
    val_main_v45 (F := Ideal) x7 (ix2 n j) = val_main_v43 (F := Ideal) x7 (ix1 j) := by
  rw [val_main_v45_apply, val_main_v44_apply]
  exact congrArg _ (funext fun a => Fin.ext (by match a with | ⟨0, _⟩ => rfl))

/-- The broadcast reciprocal square root at (n, j) is its entry at j. -/
theorem bcRS0 (n : Fin 100000) (j : Fin 128) :
    val_main_v53 (F := Ideal) x8 (ix2 n j) = val_main_v51 (F := Ideal) x8 (ix1 j) := by
  rw [val_main_v53_apply, val_main_v52_apply]
  exact congrArg _ (funext fun a => Fin.ext (by match a with | ⟨0, _⟩ => rfl))

/-- The broadcast scale row at (n, j) is the row at j. -/
theorem bcG0 (n : Fin 100000) (j : Fin 128) :
    val_main_v58 (F := Ideal) x5 (ix2 n j) = val_main_v56 (F := Ideal) x5 (ix1 j) := by
  rw [val_main_v58_apply, val_main_v57_apply]
  exact congrArg _ (funext fun a => Fin.ext (by match a with | ⟨0, _⟩ => rfl))

/-- The broadcast shift row at (n, j) is the row at j. -/
theorem bcBB0 (n : Fin 100000) (j : Fin 128) :
    val_main_v63 (F := Ideal) x6 (ix2 n j) = val_main_v61 (F := Ideal) x6 (ix1 j) := by
  rw [val_main_v63_apply, val_main_v62_apply]
  exact congrArg _ (funext fun a => Fin.ext (by match a with | ⟨0, _⟩ => rfl))

/-- The broadcast zero of the rectifier, at any entry. -/
theorem zero0 (i : S100000x128.Idx) :
    val_main_call1_v0 (F := Ideal) i = Ideal.ofBits .f32 0x00000000#32 := by
  rw [val_main_call1_v0_apply, val_main_call1_cst_apply]
  rfl

/-- The skip product of the first layer, at (n, j). -/
theorem dotP0 (n : Fin 100000) (j : Fin 128) :
    val_main_v67 (F := Ideal) x0 x9 (ix2 n j)
      = ∑ k : Fin 128, x0 (ix2 n k) * val_main_v66 (F := Ideal) x9 (ix2 k j) := by
  rw [val_main_v67_apply]
  refine Finset.sum_congr rfl fun k _ => ?_
  have hl : lidx_main_v67 (ix2 n j) k = ix2 n k := funext fun a => Fin.ext (by match a with | ⟨0, _⟩ => rfl | ⟨1, _⟩ => rfl)
  have hr : ridx_main_v67 (ix2 n j) k = ix2 k j := funext fun a => Fin.ext (by match a with | ⟨0, _⟩ => rfl | ⟨1, _⟩ => rfl)
  rw [hl, hr]

/-- The first layer at (n, j). -/
theorem ref_layer0_apply (n : Fin 100000) (j : Fin 128) :
    val_main_v68 (F := Ideal) x0 x1 x2 x3 x4 x5 x6 x7 x8 x9 (ix2 n j)
      = max ((((((∑ k : Fin 128, val_main_v27 (F := Ideal) x0 x1 (ix2 n k) * val_main_v30 (F := Ideal) x2 (ix2 k j))
                    + val_main_v33 (F := Ideal) x3 (ix1 j))
                  + ∑ k : Fin 128, x0 (ix2 n k) * val_main_v39 (F := Ideal) x4 (ix2 k j))
                - val_main_v43 (F := Ideal) x7 (ix1 j))
              * val_main_v51 (F := Ideal) x8 (ix1 j)) * val_main_v56 (F := Ideal) x5 (ix1 j) + val_main_v61 (F := Ideal) x6 (ix1 j))
          (Ideal.ofBits .f32 0x00000000#32)
        + ∑ k : Fin 128, x0 (ix2 n k) * val_main_v66 (F := Ideal) x9 (ix2 k j) := by
  rw [val_main_v68_apply, val_main_v65_apply, val_main_v64_apply, val_main_v59_apply, val_main_v54_apply, val_main_v46_apply, val_main_v41_apply, val_main_v36_apply,
    dotA0, bcBL0, dotX0, bcMU0, bcRS0, bcG0, bcBB0, zero0, dotP0]
  rfl

/-! ## Layer 1: the non-pointwise operations at an entry -/

/-- The product of the aggregated input with the transposed left weights, at (n, j). -/
theorem dotA1 (n : Fin 100000) (j : Fin 128) :
    val_main_v84 (F := Ideal) x0 x1 x2 x3 x4 x5 x6 x7 x8 x9 (ix2 n j)
      = ∑ k : Fin 128, val_main_v80 (F := Ideal) x0 x1 x2 x3 x4 x5 x6 x7 x8 x9 (ix2 n k) * val_main_v83 (F := Ideal) x2 (ix2 k j) := by
  rw [val_main_v84_apply]
  refine Finset.sum_congr rfl fun k _ => ?_
  have hl : lidx_main_v84 (ix2 n j) k = ix2 n k := funext fun a => Fin.ext (by match a with | ⟨0, _⟩ => rfl | ⟨1, _⟩ => rfl)
  have hr : ridx_main_v84 (ix2 n j) k = ix2 k j := funext fun a => Fin.ext (by match a with | ⟨0, _⟩ => rfl | ⟨1, _⟩ => rfl)
  rw [hl, hr]

/-- The product of the layer's input with the transposed right weights, at (n, j). -/
theorem dotX1 (n : Fin 100000) (j : Fin 128) :
    val_main_v93 (F := Ideal) x0 x1 x2 x3 x4 x5 x6 x7 x8 x9 (ix2 n j)
      = ∑ k : Fin 128, val_main_v68 (F := Ideal) x0 x1 x2 x3 x4 x5 x6 x7 x8 x9 (ix2 n k) * val_main_v92 (F := Ideal) x4 (ix2 k j) := by
  rw [val_main_v93_apply]
  refine Finset.sum_congr rfl fun k _ => ?_
  have hl : lidx_main_v93 (ix2 n j) k = ix2 n k := funext fun a => Fin.ext (by match a with | ⟨0, _⟩ => rfl | ⟨1, _⟩ => rfl)
  have hr : ridx_main_v93 (ix2 n j) k = ix2 k j := funext fun a => Fin.ext (by match a with | ⟨0, _⟩ => rfl | ⟨1, _⟩ => rfl)
  rw [hl, hr]

/-- The broadcast bias row at (n, j) is the row at j. -/
theorem bcBL1 (n : Fin 100000) (j : Fin 128) :
    val_main_v88 (F := Ideal) x3 (ix2 n j) = val_main_v86 (F := Ideal) x3 (ix1 j) := by
  rw [val_main_v88_apply, val_main_v87_apply]
  exact congrArg _ (funext fun a => Fin.ext (by match a with | ⟨0, _⟩ => rfl))

/-- The broadcast running-mean row at (n, j) is the row at j. -/
theorem bcMU1 (n : Fin 100000) (j : Fin 128) :
    val_main_v98 (F := Ideal) x7 (ix2 n j) = val_main_v96 (F := Ideal) x7 (ix1 j) := by
  rw [val_main_v98_apply, val_main_v97_apply]
  exact congrArg _ (funext fun a => Fin.ext (by match a with | ⟨0, _⟩ => rfl))

/-- The broadcast reciprocal square root at (n, j) is its entry at j. -/
theorem bcRS1 (n : Fin 100000) (j : Fin 128) :
    val_main_v106 (F := Ideal) x8 (ix2 n j) = val_main_v104 (F := Ideal) x8 (ix1 j) := by
  rw [val_main_v106_apply, val_main_v105_apply]
  exact congrArg _ (funext fun a => Fin.ext (by match a with | ⟨0, _⟩ => rfl))

/-- The broadcast scale row at (n, j) is the row at j. -/
theorem bcG1 (n : Fin 100000) (j : Fin 128) :
    val_main_v111 (F := Ideal) x5 (ix2 n j) = val_main_v109 (F := Ideal) x5 (ix1 j) := by
  rw [val_main_v111_apply, val_main_v110_apply]
  exact congrArg _ (funext fun a => Fin.ext (by match a with | ⟨0, _⟩ => rfl))

/-- The broadcast shift row at (n, j) is the row at j. -/
theorem bcBB1 (n : Fin 100000) (j : Fin 128) :
    val_main_v116 (F := Ideal) x6 (ix2 n j) = val_main_v114 (F := Ideal) x6 (ix1 j) := by
  rw [val_main_v116_apply, val_main_v115_apply]
  exact congrArg _ (funext fun a => Fin.ext (by match a with | ⟨0, _⟩ => rfl))

/-- The broadcast zero of the rectifier, at any entry. -/
theorem zero1 (i : S100000x128.Idx) :
    val_main_call2_v0 (F := Ideal) i = Ideal.ofBits .f32 0x00000000#32 := by
  rw [val_main_call2_v0_apply, val_main_call2_cst_apply]
  rfl

/-- The second layer at (n, j): the same affine form on the first layer's output, plus that output. -/
theorem ref_layer1_apply (n : Fin 100000) (j : Fin 128) :
    val_main_v119 (F := Ideal) x0 x1 x2 x3 x4 x5 x6 x7 x8 x9 (ix2 n j)
      = max ((((((∑ k : Fin 128, val_main_v80 (F := Ideal) x0 x1 x2 x3 x4 x5 x6 x7 x8 x9 (ix2 n k) * val_main_v83 (F := Ideal) x2 (ix2 k j))
                    + val_main_v86 (F := Ideal) x3 (ix1 j))
                  + ∑ k : Fin 128, val_main_v68 (F := Ideal) x0 x1 x2 x3 x4 x5 x6 x7 x8 x9 (ix2 n k) * val_main_v92 (F := Ideal) x4 (ix2 k j))
                - val_main_v96 (F := Ideal) x7 (ix1 j))
              * val_main_v104 (F := Ideal) x8 (ix1 j)) * val_main_v109 (F := Ideal) x5 (ix1 j) + val_main_v114 (F := Ideal) x6 (ix1 j))
          (Ideal.ofBits .f32 0x00000000#32)
        + val_main_v68 (F := Ideal) x0 x1 x2 x3 x4 x5 x6 x7 x8 x9 (ix2 n j) := by
  rw [val_main_v119_apply, val_main_v118_apply, val_main_v117_apply, val_main_v112_apply, val_main_v107_apply, val_main_v99_apply, val_main_v94_apply, val_main_v89_apply,
    dotA1, bcBL1, dotX1, bcMU1, bcRS1, bcG1, bcBB1, zero1]
  rfl

/-! ## Layer 2: the non-pointwise operations at an entry -/

/-- The product of the aggregated input with the transposed left weights, at (n, j). -/
theorem dotA2 (n : Fin 100000) (j : Fin 128) :
    val_main_v135 (F := Ideal) x0 x1 x2 x3 x4 x5 x6 x7 x8 x9 (ix2 n j)
      = ∑ k : Fin 128, val_main_v131 (F := Ideal) x0 x1 x2 x3 x4 x5 x6 x7 x8 x9 (ix2 n k) * val_main_v134 (F := Ideal) x2 (ix2 k j) := by
  rw [val_main_v135_apply]
  refine Finset.sum_congr rfl fun k _ => ?_
  have hl : lidx_main_v135 (ix2 n j) k = ix2 n k := funext fun a => Fin.ext (by match a with | ⟨0, _⟩ => rfl | ⟨1, _⟩ => rfl)
  have hr : ridx_main_v135 (ix2 n j) k = ix2 k j := funext fun a => Fin.ext (by match a with | ⟨0, _⟩ => rfl | ⟨1, _⟩ => rfl)
  rw [hl, hr]

/-- The product of the layer's input with the transposed right weights, at (n, j). -/
theorem dotX2 (n : Fin 100000) (j : Fin 128) :
    val_main_v144 (F := Ideal) x0 x1 x2 x3 x4 x5 x6 x7 x8 x9 (ix2 n j)
      = ∑ k : Fin 128, val_main_v119 (F := Ideal) x0 x1 x2 x3 x4 x5 x6 x7 x8 x9 (ix2 n k) * val_main_v143 (F := Ideal) x4 (ix2 k j) := by
  rw [val_main_v144_apply]
  refine Finset.sum_congr rfl fun k _ => ?_
  have hl : lidx_main_v144 (ix2 n j) k = ix2 n k := funext fun a => Fin.ext (by match a with | ⟨0, _⟩ => rfl | ⟨1, _⟩ => rfl)
  have hr : ridx_main_v144 (ix2 n j) k = ix2 k j := funext fun a => Fin.ext (by match a with | ⟨0, _⟩ => rfl | ⟨1, _⟩ => rfl)
  rw [hl, hr]

/-- The broadcast bias row at (n, j) is the row at j. -/
theorem bcBL2 (n : Fin 100000) (j : Fin 128) :
    val_main_v139 (F := Ideal) x3 (ix2 n j) = val_main_v137 (F := Ideal) x3 (ix1 j) := by
  rw [val_main_v139_apply, val_main_v138_apply]
  exact congrArg _ (funext fun a => Fin.ext (by match a with | ⟨0, _⟩ => rfl))

/-- The broadcast running-mean row at (n, j) is the row at j. -/
theorem bcMU2 (n : Fin 100000) (j : Fin 128) :
    val_main_v149 (F := Ideal) x7 (ix2 n j) = val_main_v147 (F := Ideal) x7 (ix1 j) := by
  rw [val_main_v149_apply, val_main_v148_apply]
  exact congrArg _ (funext fun a => Fin.ext (by match a with | ⟨0, _⟩ => rfl))

/-- The broadcast reciprocal square root at (n, j) is its entry at j. -/
theorem bcRS2 (n : Fin 100000) (j : Fin 128) :
    val_main_v157 (F := Ideal) x8 (ix2 n j) = val_main_v155 (F := Ideal) x8 (ix1 j) := by
  rw [val_main_v157_apply, val_main_v156_apply]
  exact congrArg _ (funext fun a => Fin.ext (by match a with | ⟨0, _⟩ => rfl))

/-- The broadcast scale row at (n, j) is the row at j. -/
theorem bcG2 (n : Fin 100000) (j : Fin 128) :
    val_main_v162 (F := Ideal) x5 (ix2 n j) = val_main_v160 (F := Ideal) x5 (ix1 j) := by
  rw [val_main_v162_apply, val_main_v161_apply]
  exact congrArg _ (funext fun a => Fin.ext (by match a with | ⟨0, _⟩ => rfl))

/-- The broadcast shift row at (n, j) is the row at j. -/
theorem bcBB2 (n : Fin 100000) (j : Fin 128) :
    val_main_v167 (F := Ideal) x6 (ix2 n j) = val_main_v165 (F := Ideal) x6 (ix1 j) := by
  rw [val_main_v167_apply, val_main_v166_apply]
  exact congrArg _ (funext fun a => Fin.ext (by match a with | ⟨0, _⟩ => rfl))

/-- The broadcast zero of the rectifier, at any entry. -/
theorem zero2 (i : S100000x128.Idx) :
    val_main_call3_v0 (F := Ideal) i = Ideal.ofBits .f32 0x00000000#32 := by
  rw [val_main_call3_v0_apply, val_main_call3_cst_apply]
  rfl

/-- The third layer at (n, j): the same affine form on the second layer's output, plus that output. -/
theorem ref_layer2_apply (n : Fin 100000) (j : Fin 128) :
    val_main_v170 (F := Ideal) x0 x1 x2 x3 x4 x5 x6 x7 x8 x9 (ix2 n j)
      = max ((((((∑ k : Fin 128, val_main_v131 (F := Ideal) x0 x1 x2 x3 x4 x5 x6 x7 x8 x9 (ix2 n k) * val_main_v134 (F := Ideal) x2 (ix2 k j))
                    + val_main_v137 (F := Ideal) x3 (ix1 j))
                  + ∑ k : Fin 128, val_main_v119 (F := Ideal) x0 x1 x2 x3 x4 x5 x6 x7 x8 x9 (ix2 n k) * val_main_v143 (F := Ideal) x4 (ix2 k j))
                - val_main_v147 (F := Ideal) x7 (ix1 j))
              * val_main_v155 (F := Ideal) x8 (ix1 j)) * val_main_v160 (F := Ideal) x5 (ix1 j) + val_main_v165 (F := Ideal) x6 (ix1 j))
          (Ideal.ofBits .f32 0x00000000#32)
        + val_main_v119 (F := Ideal) x0 x1 x2 x3 x4 x5 x6 x7 x8 x9 (ix2 n j) := by
  rw [val_main_v170_apply, val_main_v169_apply, val_main_v168_apply, val_main_v163_apply, val_main_v158_apply, val_main_v150_apply, val_main_v145_apply, val_main_v140_apply,
    dotA2, bcBL2, dotX2, bcMU2, bcRS2, bcG2, bcBB2, zero2]
  rfl

/-! ## The classifier -/

/-- The product of the third layer's output with the transposed classifier weights, at (n, q). -/
theorem dotC (n : Fin 100000) (q : Fin 2) :
    val_main_v172 (F := Ideal) x0 x1 x2 x3 x4 x5 x6 x7 x8 x9 x10 (ix2 n q)
      = ∑ j : Fin 128, val_main_v170 (F := Ideal) x0 x1 x2 x3 x4 x5 x6 x7 x8 x9 (ix2 n j) * val_main_v171 (F := Ideal) x10 (ix2 j q) := by
  rw [val_main_v172_apply]
  refine Finset.sum_congr rfl fun k _ => ?_
  have hl : lidx_main_v172 (ix2 n q) k = ix2 n k := funext fun a => Fin.ext (by match a with | ⟨0, _⟩ => rfl | ⟨1, _⟩ => rfl)
  have hr : ridx_main_v172 (ix2 n q) k = ix2 k q := funext fun a => Fin.ext (by match a with | ⟨0, _⟩ => rfl | ⟨1, _⟩ => rfl)
  rw [hl, hr]

/-- The broadcast classifier bias at (n, q) is the bias at q. -/
theorem bcB (n : Fin 100000) (q : Fin 2) :
    val_main_v174 (F := Ideal) x11 (ix2 n q) = x11 (ix1 q) := by
  rw [val_main_v174_apply, val_main_v173_apply]
  exact congrArg _ (funext fun a => Fin.ext (by match a with | ⟨0, _⟩ => rfl))

/-- The result at (n, q). -/
theorem ref_final_apply (n : Fin 100000) (q : Fin 2) :
    val_main_v175 (F := Ideal) x0 x1 x2 x3 x4 x5 x6 x7 x8 x9 x10 x11 (ix2 n q)
      = (∑ j : Fin 128,
          (max ((((((∑ k : Fin 128, val_main_v131 (F := Ideal) x0 x1 x2 x3 x4 x5 x6 x7 x8 x9 (ix2 n k) * val_main_v134 (F := Ideal) x2 (ix2 k j))
                    + val_main_v137 (F := Ideal) x3 (ix1 j))
                  + ∑ k : Fin 128, val_main_v119 (F := Ideal) x0 x1 x2 x3 x4 x5 x6 x7 x8 x9 (ix2 n k) * val_main_v143 (F := Ideal) x4 (ix2 k j))
                - val_main_v147 (F := Ideal) x7 (ix1 j))
              * val_main_v155 (F := Ideal) x8 (ix1 j)) * val_main_v160 (F := Ideal) x5 (ix1 j) + val_main_v165 (F := Ideal) x6 (ix1 j))
          (Ideal.ofBits .f32 0x00000000#32)
            + val_main_v119 (F := Ideal) x0 x1 x2 x3 x4 x5 x6 x7 x8 x9 (ix2 n j)) * val_main_v171 (F := Ideal) x10 (ix2 j q))
        + x11 (ix1 q) := by
  rw [val_main_v175_apply, dotC, bcB]
  have h : ∀ j : Fin 128, val_main_v170 (F := Ideal) x0 x1 x2 x3 x4 x5 x6 x7 x8 x9 (ix2 n j) * val_main_v171 (F := Ideal) x10 (ix2 j q)
      = (max ((((((∑ k : Fin 128, val_main_v131 (F := Ideal) x0 x1 x2 x3 x4 x5 x6 x7 x8 x9 (ix2 n k) * val_main_v134 (F := Ideal) x2 (ix2 k j))
                    + val_main_v137 (F := Ideal) x3 (ix1 j))
                  + ∑ k : Fin 128, val_main_v119 (F := Ideal) x0 x1 x2 x3 x4 x5 x6 x7 x8 x9 (ix2 n k) * val_main_v143 (F := Ideal) x4 (ix2 k j))
                - val_main_v147 (F := Ideal) x7 (ix1 j))
              * val_main_v155 (F := Ideal) x8 (ix1 j)) * val_main_v160 (F := Ideal) x5 (ix1 j) + val_main_v165 (F := Ideal) x6 (ix1 j))
          (Ideal.ofBits .f32 0x00000000#32)
            + val_main_v119 (F := Ideal) x0 x1 x2 x3 x4 x5 x6 x7 x8 x9 (ix2 n j)) * val_main_v171 (F := Ideal) x10 (ix2 j q) :=
    fun j => by rw [ref_layer2_apply]
  rw [Finset.sum_congr rfl fun j _ => h j]
  rfl

end Cert.Sage
-- ==== Proof.LayerReal.lean ====
/-
  The first and the middle layer map real arrays to real arrays: an entry is the larger of a real number and zero,
  plus a finite sum of products of reals or plus one real entry.
-/
import proofs.«170960_j60790967107705_2_alg».proof.Proof.LayerSpec

noncomputable section

open scoped BigOperators

namespace Cert.Sage

open Idealize.ShloMosaic Idealize.ShloMosaic.ValueIdx

/-- The first layer of real arrays is real. -/
theorem layerProj_real (agg x : A2 100000 128) (wl wr : A2 128 128) (sc sh : A1 128) (pt : A2 128 128)
    (hagg : IsReal agg) (hx : IsReal x) (hwl : IsReal wl) (hwr : IsReal wr) (hsc : IsReal sc) (hsh : IsReal sh)
    (hpt : IsReal pt) : IsReal (layerProj agg x wl wr sc sh pt) := by
  intro i
  obtain ⟨n, j, rfl⟩ : ∃ (n : Fin 100000) (j : Fin 128), i = ix2 n j := ⟨i 0, i 1, eq_ix2 i⟩
  obtain ⟨a, ha⟩ := hfold_real agg x wl wr sc sh hagg hx hwl hwr hsc hsh n j
  obtain ⟨b, hb⟩ : ∃ r : ℝ, (∑ k : Fin 128, x (ix2 n k) * pt (ix2 k j)) = (r : EReal) :=
    real_sum_mul (fun k : Fin 128 => x (ix2 n k)) (fun k => pt (ix2 k j)) (fun k => hx _) (fun k => hpt _)
  exact ⟨a + b, by rw [layerProj_apply, ha, hb, EReal.coe_add]⟩

/-- The middle layer of real arrays is real. -/
theorem layerMid_real (agg x : A2 100000 128) (wl wr : A2 128 128) (sc sh : A1 128)
    (hagg : IsReal agg) (hx : IsReal x) (hwl : IsReal wl) (hwr : IsReal wr) (hsc : IsReal sc) (hsh : IsReal sh) :
    IsReal (layerMid agg x wl wr sc sh) := by
  intro i
  obtain ⟨n, j, rfl⟩ : ∃ (n : Fin 100000) (j : Fin 128), i = ix2 n j := ⟨i 0, i 1, eq_ix2 i⟩
  obtain ⟨a, ha⟩ := hfold_real agg x wl wr sc sh hagg hx hwl hwr hsc hsh n j
  obtain ⟨b, hb⟩ := hx (ix2 n j)
  exact ⟨a + b, by rw [layerMid_apply, ha, hb, EReal.coe_add]⟩

/-- The folded scale `g·rs` of real vectors is real. -/
theorem scale_real (g rs : A1 128) (hg : IsReal g) (hrs : IsReal rs) : IsReal (fun i => g i * rs i) := by
  intro i
  obtain ⟨a, ha⟩ := hg i
  obtain ⟨b, hb⟩ := hrs i
  exact ⟨a * b, by show g i * rs i = _; rw [ha, hb, EReal.coe_mul]⟩

/-- The folded shift `bb + (bl − mu)·(g·rs)` of real vectors is real. -/
theorem shift_real (g rs bb bl mu : A1 128) (hg : IsReal g) (hrs : IsReal rs) (hbb : IsReal bb) (hbl : IsReal bl)
    (hmu : IsReal mu) : IsReal (fun i => bb i + (bl i - mu i) * (g i * rs i)) := by
  intro i
  obtain ⟨a, ha⟩ := hg i
  obtain ⟨b, hb⟩ := hrs i
  obtain ⟨p, hp⟩ := hbb i
  obtain ⟨q, hq⟩ := hbl i
  obtain ⟨r, hr⟩ := hmu i
  exact ⟨p + (q - r) * (a * b), by
    show bb i + (bl i - mu i) * (g i * rs i) = _
    rw [ha, hb, hp, hq, hr, EReal.coe_add, EReal.coe_mul, EReal.coe_mul, EReal.coe_sub]⟩

end Cert.Sage
-- ==== Proof.Bridge.lean ====
/-
  The folded layers of the reference's own stages are the reference's layers.

  Take the reference's intermediate arrays as they are: the aggregated features, the transposed weight matrices, the
  bias, mean, reciprocal standard deviation `rs = rsqrt(var + eps)`, gain and offset vectors of a layer. The kernel
  applies to them the folded affine step (scale `g·rs`, shift `bb + (bl − mu)·(g·rs)`), the reference the unfolded one.
  Where every entry read is a real number the two agree entry by entry (LayerSpec's law), so the folded first, middle
  and last layers of those stages are the reference's stages `X1`, `X2` and its result; and `X1`, `X2` are real
  arrays again, which carries the argument to the next layer.
-/
import proofs.«170960_j60790967107705_2_alg».proof.Proof.ReadP
import proofs.«170960_j60790967107705_2_alg».proof.Proof.RefLayers
import proofs.«170960_j60790967107705_2_alg».proof.Proof.LayerReal

noncomputable section

open scoped BigOperators

namespace Cert.Sage

open Idealize.ShloMosaic Idealize.ShloMosaic.ValueIdx
open Cert.ReferenceIdeal.Read (val_main_v27 val_main_v30 val_main_v33 val_main_v39 val_main_v43 val_main_v51 val_main_v56 val_main_v61 val_main_v66 val_main_v68 val_main_v80 val_main_v83 val_main_v86 val_main_v92 val_main_v96 val_main_v104 val_main_v109 val_main_v114 val_main_v119 val_main_v131 val_main_v134 val_main_v137 val_main_v143 val_main_v147 val_main_v155 val_main_v160 val_main_v165 val_main_v170 val_main_v171 val_main_v175)

/-- The folded first layer of the reference's stages is the reference's first layer. -/
theorem layer0_bridge (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S3x128x128, .f32⟩ : BufTy).Contents (Elt Ideal)) (x3 : (⟨Cert.ReferenceIdeal.S3x128, .f32⟩ : BufTy).Contents (Elt Ideal))
    (x4 : (⟨Cert.ReferenceIdeal.S3x128x128, .f32⟩ : BufTy).Contents (Elt Ideal)) (x5 x6 x7 x8 : (⟨Cert.ReferenceIdeal.S3x128, .f32⟩ : BufTy).Contents (Elt Ideal))
    (x9 : (⟨Cert.ReferenceIdeal.S128x128, .f32⟩ : BufTy).Contents (Elt Ideal))
    (hagg : IsReal (val_main_v27 (F := Ideal) x0 x1)) (hx : IsReal x0) (hwl : IsReal (val_main_v30 (F := Ideal) x2)) (hwr : IsReal (val_main_v39 (F := Ideal) x4))
    (hg : IsReal (val_main_v56 (F := Ideal) x5)) (hrs : IsReal (val_main_v51 (F := Ideal) x8)) (hbb : IsReal (val_main_v61 (F := Ideal) x6))
    (hbl : IsReal (val_main_v33 (F := Ideal) x3)) (hmu : IsReal (val_main_v43 (F := Ideal) x7)) :
    layerProj (val_main_v27 (F := Ideal) x0 x1) x0 (val_main_v30 (F := Ideal) x2) (val_main_v39 (F := Ideal) x4)
        (fun i => val_main_v56 (F := Ideal) x5 i * val_main_v51 (F := Ideal) x8 i)
        (fun i => val_main_v61 (F := Ideal) x6 i + (val_main_v33 (F := Ideal) x3 i - val_main_v43 (F := Ideal) x7 i) * (val_main_v56 (F := Ideal) x5 i * val_main_v51 (F := Ideal) x8 i))
        (val_main_v66 (F := Ideal) x9)
      = val_main_v68 (F := Ideal) x0 x1 x2 x3 x4 x5 x6 x7 x8 x9 := by
  funext i
  obtain ⟨n, j, rfl⟩ : ∃ (n : Fin 100000) (j : Fin 128), i = ix2 n j := ⟨i 0, i 1, eq_ix2 i⟩
  rw [layerProj_apply,
    fold_eq_unfolded (val_main_v27 (F := Ideal) x0 x1) x0 (val_main_v30 (F := Ideal) x2) (val_main_v39 (F := Ideal) x4) (val_main_v56 (F := Ideal) x5) (val_main_v51 (F := Ideal) x8)
      (val_main_v61 (F := Ideal) x6) (val_main_v33 (F := Ideal) x3) (val_main_v43 (F := Ideal) x7) hagg hx hwl hwr hg hrs hbb hbl hmu n j]
  exact (ref_layer0_apply x0 x1 x2 x3 x4 x5 x6 x7 x8 x9 n j).symm

/-- The reference's first layer is a real array. -/
theorem x1_real (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S3x128x128, .f32⟩ : BufTy).Contents (Elt Ideal)) (x3 : (⟨Cert.ReferenceIdeal.S3x128, .f32⟩ : BufTy).Contents (Elt Ideal))
    (x4 : (⟨Cert.ReferenceIdeal.S3x128x128, .f32⟩ : BufTy).Contents (Elt Ideal)) (x5 x6 x7 x8 : (⟨Cert.ReferenceIdeal.S3x128, .f32⟩ : BufTy).Contents (Elt Ideal))
    (x9 : (⟨Cert.ReferenceIdeal.S128x128, .f32⟩ : BufTy).Contents (Elt Ideal))
    (hagg : IsReal (val_main_v27 (F := Ideal) x0 x1)) (hx : IsReal x0) (hwl : IsReal (val_main_v30 (F := Ideal) x2)) (hwr : IsReal (val_main_v39 (F := Ideal) x4))
    (hg : IsReal (val_main_v56 (F := Ideal) x5)) (hrs : IsReal (val_main_v51 (F := Ideal) x8)) (hbb : IsReal (val_main_v61 (F := Ideal) x6))
    (hbl : IsReal (val_main_v33 (F := Ideal) x3)) (hmu : IsReal (val_main_v43 (F := Ideal) x7)) (hpt : IsReal (val_main_v66 (F := Ideal) x9)) :
    IsReal (val_main_v68 (F := Ideal) x0 x1 x2 x3 x4 x5 x6 x7 x8 x9) := by
  rw [← layer0_bridge x0 x1 x2 x3 x4 x5 x6 x7 x8 x9 hagg hx hwl hwr hg hrs hbb hbl hmu]
  exact layerProj_real _ _ _ _ _ _ _ hagg hx hwl hwr (scale_real _ _ hg hrs) (shift_real _ _ _ _ _ hg hrs hbb hbl hmu) hpt

/-- The folded middle layer of the reference's stages is the reference's second layer. -/
theorem layer1_bridge (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S3x128x128, .f32⟩ : BufTy).Contents (Elt Ideal)) (x3 : (⟨Cert.ReferenceIdeal.S3x128, .f32⟩ : BufTy).Contents (Elt Ideal))
    (x4 : (⟨Cert.ReferenceIdeal.S3x128x128, .f32⟩ : BufTy).Contents (Elt Ideal)) (x5 x6 x7 x8 : (⟨Cert.ReferenceIdeal.S3x128, .f32⟩ : BufTy).Contents (Elt Ideal))
    (x9 : (⟨Cert.ReferenceIdeal.S128x128, .f32⟩ : BufTy).Contents (Elt Ideal))
    (hagg : IsReal (val_main_v80 (F := Ideal) x0 x1 x2 x3 x4 x5 x6 x7 x8 x9)) (hx : IsReal (val_main_v68 (F := Ideal) x0 x1 x2 x3 x4 x5 x6 x7 x8 x9)) (hwl : IsReal (val_main_v83 (F := Ideal) x2)) (hwr : IsReal (val_main_v92 (F := Ideal) x4))
    (hg : IsReal (val_main_v109 (F := Ideal) x5)) (hrs : IsReal (val_main_v104 (F := Ideal) x8)) (hbb : IsReal (val_main_v114 (F := Ideal) x6))
    (hbl : IsReal (val_main_v86 (F := Ideal) x3)) (hmu : IsReal (val_main_v96 (F := Ideal) x7)) :
    layerMid (val_main_v80 (F := Ideal) x0 x1 x2 x3 x4 x5 x6 x7 x8 x9) (val_main_v68 (F := Ideal) x0 x1 x2 x3 x4 x5 x6 x7 x8 x9) (val_main_v83 (F := Ideal) x2) (val_main_v92 (F := Ideal) x4)
        (fun i => val_main_v109 (F := Ideal) x5 i * val_main_v104 (F := Ideal) x8 i)
        (fun i => val_main_v114 (F := Ideal) x6 i + (val_main_v86 (F := Ideal) x3 i - val_main_v96 (F := Ideal) x7 i) * (val_main_v109 (F := Ideal) x5 i * val_main_v104 (F := Ideal) x8 i))
      = val_main_v119 (F := Ideal) x0 x1 x2 x3 x4 x5 x6 x7 x8 x9 := by
  funext i
  obtain ⟨n, j, rfl⟩ : ∃ (n : Fin 100000) (j : Fin 128), i = ix2 n j := ⟨i 0, i 1, eq_ix2 i⟩
  rw [layerMid_apply,
    fold_eq_unfolded (val_main_v80 (F := Ideal) x0 x1 x2 x3 x4 x5 x6 x7 x8 x9) (val_main_v68 (F := Ideal) x0 x1 x2 x3 x4 x5 x6 x7 x8 x9) (val_main_v83 (F := Ideal) x2) (val_main_v92 (F := Ideal) x4) (val_main_v109 (F := Ideal) x5) (val_main_v104 (F := Ideal) x8)
      (val_main_v114 (F := Ideal) x6) (val_main_v86 (F := Ideal) x3) (val_main_v96 (F := Ideal) x7) hagg hx hwl hwr hg hrs hbb hbl hmu n j]
  exact (ref_layer1_apply x0 x1 x2 x3 x4 x5 x6 x7 x8 x9 n j).symm

/-- The reference's second layer is a real array. -/
theorem x2_real (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S3x128x128, .f32⟩ : BufTy).Contents (Elt Ideal)) (x3 : (⟨Cert.ReferenceIdeal.S3x128, .f32⟩ : BufTy).Contents (Elt Ideal))
    (x4 : (⟨Cert.ReferenceIdeal.S3x128x128, .f32⟩ : BufTy).Contents (Elt Ideal)) (x5 x6 x7 x8 : (⟨Cert.ReferenceIdeal.S3x128, .f32⟩ : BufTy).Contents (Elt Ideal))
    (x9 : (⟨Cert.ReferenceIdeal.S128x128, .f32⟩ : BufTy).Contents (Elt Ideal))
    (hagg : IsReal (val_main_v80 (F := Ideal) x0 x1 x2 x3 x4 x5 x6 x7 x8 x9)) (hx : IsReal (val_main_v68 (F := Ideal) x0 x1 x2 x3 x4 x5 x6 x7 x8 x9)) (hwl : IsReal (val_main_v83 (F := Ideal) x2)) (hwr : IsReal (val_main_v92 (F := Ideal) x4))
    (hg : IsReal (val_main_v109 (F := Ideal) x5)) (hrs : IsReal (val_main_v104 (F := Ideal) x8)) (hbb : IsReal (val_main_v114 (F := Ideal) x6))
    (hbl : IsReal (val_main_v86 (F := Ideal) x3)) (hmu : IsReal (val_main_v96 (F := Ideal) x7)) :
    IsReal (val_main_v119 (F := Ideal) x0 x1 x2 x3 x4 x5 x6 x7 x8 x9) := by
  rw [← layer1_bridge x0 x1 x2 x3 x4 x5 x6 x7 x8 x9 hagg hx hwl hwr hg hrs hbb hbl hmu]
  exact layerMid_real _ _ _ _ _ _ hagg hx hwl hwr (scale_real _ _ hg hrs) (shift_real _ _ _ _ _ hg hrs hbb hbl hmu)

/-- The folded last layer of the reference's stages, through the classifier, is the reference's result. -/
theorem final_bridge (x0 : (⟨Cert.ReferenceIdeal.S100000x128, .f32⟩ : BufTy).Contents (Elt Ideal)) (x1 : (⟨Cert.ReferenceIdeal.S2x600000, .i32⟩ : BufTy).Contents (Elt Ideal))
    (x2 : (⟨Cert.ReferenceIdeal.S3x128x128, .f32⟩ : BufTy).Contents (Elt Ideal)) (x3 : (⟨Cert.ReferenceIdeal.S3x128, .f32⟩ : BufTy).Contents (Elt Ideal))
    (x4 : (⟨Cert.ReferenceIdeal.S3x128x128, .f32⟩ : BufTy).Contents (Elt Ideal)) (x5 x6 x7 x8 : (⟨Cert.ReferenceIdeal.S3x128, .f32⟩ : BufTy).Contents (Elt Ideal))
    (x9 : (⟨Cert.ReferenceIdeal.S128x128, .f32⟩ : BufTy).Contents (Elt Ideal))
    (x10 : (⟨Cert.ReferenceIdeal.S2x128, .f32⟩ : BufTy).Contents (Elt Ideal)) (x11 : (⟨Cert.ReferenceIdeal.S2, .f32⟩ : BufTy).Contents (Elt Ideal))
    (hagg : IsReal (val_main_v131 (F := Ideal) x0 x1 x2 x3 x4 x5 x6 x7 x8 x9)) (hx : IsReal (val_main_v119 (F := Ideal) x0 x1 x2 x3 x4 x5 x6 x7 x8 x9)) (hwl : IsReal (val_main_v134 (F := Ideal) x2)) (hwr : IsReal (val_main_v143 (F := Ideal) x4))
    (hg : IsReal (val_main_v160 (F := Ideal) x5)) (hrs : IsReal (val_main_v155 (F := Ideal) x8)) (hbb : IsReal (val_main_v165 (F := Ideal) x6))
    (hbl : IsReal (val_main_v137 (F := Ideal) x3)) (hmu : IsReal (val_main_v147 (F := Ideal) x7)) :
    layerFinal (val_main_v131 (F := Ideal) x0 x1 x2 x3 x4 x5 x6 x7 x8 x9) (val_main_v119 (F := Ideal) x0 x1 x2 x3 x4 x5 x6 x7 x8 x9) (val_main_v134 (F := Ideal) x2) (val_main_v143 (F := Ideal) x4)
        (fun i => val_main_v160 (F := Ideal) x5 i * val_main_v155 (F := Ideal) x8 i)
        (fun i => val_main_v165 (F := Ideal) x6 i + (val_main_v137 (F := Ideal) x3 i - val_main_v147 (F := Ideal) x7 i) * (val_main_v160 (F := Ideal) x5 i * val_main_v155 (F := Ideal) x8 i))
        (val_main_v171 (F := Ideal) x10) x11
      = val_main_v175 (F := Ideal) x0 x1 x2 x3 x4 x5 x6 x7 x8 x9 x10 x11 := by
  funext i
  obtain ⟨n, q, rfl⟩ : ∃ (n : Fin 100000) (q : Fin 2), i = ix2 n q := ⟨i 0, i 1, eq_ix2 i⟩
  rw [layerFinal_apply, ref_final_apply x0 x1 x2 x3 x4 x5 x6 x7 x8 x9 x10 x11 n q]
  refine congrArg (· + x11 (ix1 q)) (Finset.sum_congr rfl fun j _ => ?_)
  rw [fold_eq_unfolded (val_main_v131 (F := Ideal) x0 x1 x2 x3 x4 x5 x6 x7 x8 x9) (val_main_v119 (F := Ideal) x0 x1 x2 x3 x4 x5 x6 x7 x8 x9) (val_main_v134 (F := Ideal) x2) (val_main_v143 (F := Ideal) x4) (val_main_v160 (F := Ideal) x5) (val_main_v155 (F := Ideal) x8)
      (val_main_v165 (F := Ideal) x6) (val_main_v137 (F := Ideal) x3) (val_main_v147 (F := Ideal) x7) hagg hx hwl hwr hg hrs hbb hbl hmu n j]

end Cert.Sage
-- ==== Proof.RefParams.lean ====
/-
  The parameter stages of the reference network have real entries.

  Each layer reads its weights, bias, running mean, scale and shift by slicing one row (or one matrix) out of a stack,
  reshaping it and, for the weights, transposing it: an entry of such a stage is an entry of the stack, so it is real
  when the stack is.  The normalising factor is the reciprocal square root of a row of the running variance plus a
  constant; it is real because the variance is real and nonnegative and the constant is real and positive.
-/
import proofs.«170960_j60790967107705_2_alg».proof.Proof.ReadP
import proofs.«170960_j60790967107705_2_alg».proof.Proof.Basics
import Idealize.ShloMosaic.Lib.ValueIdx

noncomputable section

open scoped BigOperators

namespace Cert.Sage

open Cert.ReferenceIdeal Cert.ReferenceIdeal.Read Idealize.ShloMosaic Idealize.ShloMosaic.ValueIdx

variable (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 x6 x7 x8 : (⟨S3x128, .f32⟩ : BufTy).Contents (Elt Ideal))
  (x9 : (⟨S128x128, .f32⟩ : BufTy).Contents (Elt Ideal)) (x10 : (⟨S2x128, .f32⟩ : BufTy).Contents (Elt Ideal))

/-! ## Layer 0: the parameter stages have real entries -/

/-- An entry of the transposed left weights is an entry of the weight stack. -/
theorem real_v30 (h : IsReal x2) : IsReal (val_main_v30 (F := Ideal) x2) := by
  intro i
  rw [val_main_v30_apply, val_main_v29_apply, val_main_v28_apply]
  exact h _

/-- An entry of the bias row is an entry of the bias stack. -/
theorem real_v33 (h : IsReal x3) : IsReal (val_main_v33 (F := Ideal) x3) := by
  intro i
  rw [val_main_v33_apply, val_main_v32_apply]
  exact h _

/-- An entry of the transposed right weights is an entry of the weight stack. -/
theorem real_v39 (h : IsReal x4) : IsReal (val_main_v39 (F := Ideal) x4) := by
  intro i
  rw [val_main_v39_apply, val_main_v38_apply, val_main_v37_apply]
  exact h _

/-- An entry of the running-mean row is an entry of the running-mean stack. -/
theorem real_v43 (h : IsReal x7) : IsReal (val_main_v43 (F := Ideal) x7) := by
  intro i
  rw [val_main_v43_apply, val_main_v42_apply]
  exact h _

/-- An entry of the scale row is an entry of the scale stack. -/
theorem real_v56 (h : IsReal x5) : IsReal (val_main_v56 (F := Ideal) x5) := by
  intro i
  rw [val_main_v56_apply, val_main_v55_apply]
  exact h _

/-- An entry of the shift row is an entry of the shift stack. -/
theorem real_v61 (h : IsReal x6) : IsReal (val_main_v61 (F := Ideal) x6) := by
  intro i
  rw [val_main_v61_apply, val_main_v60_apply]
  exact h _

/-- The reciprocal square root of a nonnegative real variance plus a positive real constant is real. -/
theorem rs0_real (h8 : IsReal x8) (hpos : ∀ i, (0 : EReal) ≤ x8 i)
    (heps : ∃ e : ℝ, 0 < e ∧ Ideal.ofBits .f32 0x3727C5AC#32 = (e : EReal))
    (hrs : ∀ v e : ℝ, 0 ≤ v → 0 < e → ∃ r : ℝ, Ideal.rsqrt ((v : EReal) + (e : EReal)) = (r : EReal)) :
    IsReal (val_main_v51 (F := Ideal) x8) := by
  intro i
  obtain ⟨e, he0, he⟩ := heps
  obtain ⟨w, hw⟩ := h8 (idx_main_v47 (idx_main_v48 i))
  have hw0 : 0 ≤ w := by
    have h := hpos (idx_main_v47 (idx_main_v48 i))
    rw [hw] at h
    exact EReal.coe_nonneg.mp h
  rw [val_main_v51_apply, val_main_v50_apply, val_main_v48_apply, val_main_v47_apply, val_main_v49_apply, val_main_cst_7_apply, hw]
  show ∃ r : ℝ, Ideal.rsqrt ((w : EReal) + Ideal.ofBits .f32 0x3727C5AC#32) = (r : EReal)
  rw [he]
  exact hrs w e hw0 he0

/-! ## Layer 1: the parameter stages have real entries -/

/-- An entry of the transposed left weights is an entry of the weight stack. -/
theorem real_v83 (h : IsReal x2) : IsReal (val_main_v83 (F := Ideal) x2) := by
  intro i
  rw [val_main_v83_apply, val_main_v82_apply, val_main_v81_apply]
  exact h _

/-- An entry of the bias row is an entry of the bias stack. -/
theorem real_v86 (h : IsReal x3) : IsReal (val_main_v86 (F := Ideal) x3) := by
  intro i
  rw [val_main_v86_apply, val_main_v85_apply]
  exact h _

/-- An entry of the transposed right weights is an entry of the weight stack. -/
theorem real_v92 (h : IsReal x4) : IsReal (val_main_v92 (F := Ideal) x4) := by
  intro i
  rw [val_main_v92_apply, val_main_v91_apply, val_main_v90_apply]
  exact h _

/-- An entry of the running-mean row is an entry of the running-mean stack. -/
theorem real_v96 (h : IsReal x7) : IsReal (val_main_v96 (F := Ideal) x7) := by
  intro i
  rw [val_main_v96_apply, val_main_v95_apply]
  exact h _

/-- An entry of the scale row is an entry of the scale stack. -/
theorem real_v109 (h : IsReal x5) : IsReal (val_main_v109 (F := Ideal) x5) := by
  intro i
  rw [val_main_v109_apply, val_main_v108_apply]
  exact h _

/-- An entry of the shift row is an entry of the shift stack. -/
theorem real_v114 (h : IsReal x6) : IsReal (val_main_v114 (F := Ideal) x6) := by
  intro i
  rw [val_main_v114_apply, val_main_v113_apply]
  exact h _

/-- The reciprocal square root of a nonnegative real variance plus a positive real constant is real. -/
theorem rs1_real (h8 : IsReal x8) (hpos : ∀ i, (0 : EReal) ≤ x8 i)
    (heps : ∃ e : ℝ, 0 < e ∧ Ideal.ofBits .f32 0x3727C5AC#32 = (e : EReal))
    (hrs : ∀ v e : ℝ, 0 ≤ v → 0 < e → ∃ r : ℝ, Ideal.rsqrt ((v : EReal) + (e : EReal)) = (r : EReal)) :
    IsReal (val_main_v104 (F := Ideal) x8) := by
  intro i
  obtain ⟨e, he0, he⟩ := heps
  obtain ⟨w, hw⟩ := h8 (idx_main_v100 (idx_main_v101 i))
  have hw0 : 0 ≤ w := by
    have h := hpos (idx_main_v100 (idx_main_v101 i))
    rw [hw] at h
    exact EReal.coe_nonneg.mp h
  rw [val_main_v104_apply, val_main_v103_apply, val_main_v101_apply, val_main_v100_apply, val_main_v102_apply, val_main_cst_11_apply, hw]
  show ∃ r : ℝ, Ideal.rsqrt ((w : EReal) + Ideal.ofBits .f32 0x3727C5AC#32) = (r : EReal)
  rw [he]
  exact hrs w e hw0 he0

/-! ## Layer 2: the parameter stages have real entries -/

/-- An entry of the transposed left weights is an entry of the weight stack. -/
theorem real_v134 (h : IsReal x2) : IsReal (val_main_v134 (F := Ideal) x2) := by
  intro i
  rw [val_main_v134_apply, val_main_v133_apply, val_main_v132_apply]
  exact h _

/-- An entry of the bias row is an entry of the bias stack. -/
theorem real_v137 (h : IsReal x3) : IsReal (val_main_v137 (F := Ideal) x3) := by
  intro i
  rw [val_main_v137_apply, val_main_v136_apply]
  exact h _

/-- An entry of the transposed right weights is an entry of the weight stack. -/
theorem real_v143 (h : IsReal x4) : IsReal (val_main_v143 (F := Ideal) x4) := by
  intro i
  rw [val_main_v143_apply, val_main_v142_apply, val_main_v141_apply]
  exact h _

/-- An entry of the running-mean row is an entry of the running-mean stack. -/
theorem real_v147 (h : IsReal x7) : IsReal (val_main_v147 (F := Ideal) x7) := by
  intro i
  rw [val_main_v147_apply, val_main_v146_apply]
  exact h _

/-- An entry of the scale row is an entry of the scale stack. -/
theorem real_v160 (h : IsReal x5) : IsReal (val_main_v160 (F := Ideal) x5) := by
  intro i
  rw [val_main_v160_apply, val_main_v159_apply]
  exact h _

/-- An entry of the shift row is an entry of the shift stack. -/
theorem real_v165 (h : IsReal x6) : IsReal (val_main_v165 (F := Ideal) x6) := by
  intro i
  rw [val_main_v165_apply, val_main_v164_apply]
  exact h _

/-- The reciprocal square root of a nonnegative real variance plus a positive real constant is real. -/
theorem rs2_real (h8 : IsReal x8) (hpos : ∀ i, (0 : EReal) ≤ x8 i)
    (heps : ∃ e : ℝ, 0 < e ∧ Ideal.ofBits .f32 0x3727C5AC#32 = (e : EReal))
    (hrs : ∀ v e : ℝ, 0 ≤ v → 0 < e → ∃ r : ℝ, Ideal.rsqrt ((v : EReal) + (e : EReal)) = (r : EReal)) :
    IsReal (val_main_v155 (F := Ideal) x8) := by
  intro i
  obtain ⟨e, he0, he⟩ := heps
  obtain ⟨w, hw⟩ := h8 (idx_main_v151 (idx_main_v152 i))
  have hw0 : 0 ≤ w := by
    have h := hpos (idx_main_v151 (idx_main_v152 i))
    rw [hw] at h
    exact EReal.coe_nonneg.mp h
  rw [val_main_v155_apply, val_main_v154_apply, val_main_v152_apply, val_main_v151_apply, val_main_v153_apply, val_main_cst_15_apply, hw]
  show ∃ r : ℝ, Ideal.rsqrt ((w : EReal) + Ideal.ofBits .f32 0x3727C5AC#32) = (r : EReal)
  rw [he]
  exact hrs w e hw0 he0

/-! ## The skip and classifier weights have real entries -/

/-- An entry of the transposed skip weights is an entry of the skip weights. -/
theorem real_v66 (h : IsReal x9) : IsReal (val_main_v66 (F := Ideal) x9) := by
  intro i
  rw [val_main_v66_apply]
  exact h _

/-- An entry of the transposed classifier weights is an entry of the classifier weights. -/
theorem real_v171 (h : IsReal x10) : IsReal (val_main_v171 (F := Ideal) x10) := by
  intro i
  rw [val_main_v171_apply]
  exact h _

end Cert.Sage
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.LibVecScatter.lean ====
/-
  A scatter-add into a vector read at an entry.

  Counting how many times each of `N` bins is named by `E` bin numbers is written as: add entry `e` of an `[E]`
  vector of updates into entry `dst[e]` of an `[N]` accumulator. In StableHLO this is a `scatter` with an `add` body
  whose windows are single numbers (operand `[N]`, scatter indices `[E, 1]`, updates `[E]`; no update window axis,
  inserted window axis 0, scatter-dims-to-operand-dims `[0]`, index vector on axis 1 of the scatter indices). This file
  reads it at one entry, for all extents `N`, `E`:

  * `scatterAdd_vec_apply`: at the ideal instance (the extended reals), entry `n` of the scatter-add is the operand's
    entry `n` plus the sum over `e : Fin E` of the update's entry `e` for those `e` whose scatter index `idx (e, 0)`,
    read as a signed integer, is `n`. An update whose bin number is negative or at least `N` lands nowhere: it equals
    no `n : Fin N`.

  It is stated twice: for the record `vecScatterDims` built from the extents, and, `…_of_eq`, for ANY record whose four
  lists are the ones above (each hypothesis closes by `rfl` on a literal record), the form to rewrite with.
-/
import Idealize.ShloMosaic.PureOps.Ideal.Laws
import Idealize.ShloMosaic.Lib.ValueIdx

noncomputable section

open scoped BigOperators

namespace Cert.LibVecScatter

open Idealize.ShloMosaic Idealize.ShloMosaic.ValueIdx

variable {N E w : Nat}

/-- The one axis of the operand is inserted: it is not among the kept ones. -/
private theorem zero_not_mem_kept : (0 : Fin 1) ∉ (List.finRange 1).filter (fun a => a ∉ ([0] : List (Fin 1))) := by decide

/-- The dimension numbers of a scatter of single numbers into a vector: operand `[N]`, scatter indices `[E, 1]`,
    updates `[E]`; the updates have no window axis, the operand's one axis is inserted and is the one the scatter
    index names, and the index vector lies along axis 1 of the scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the scatter index `idx (e, 0)`, read signed. -/
theorem scatter_start_zero (wf) (idx : IVec ⟨2, ![E, 1]⟩ w) (e : Fin E) :
    (vecScatterDims N E wf).start (ix1 e) idx 0 = (idx (ix2 e ⟨0, Nat.one_pos⟩)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window coordinate there is `0`. -/
theorem scatter_window_zero (wf) (j : (⟨1, ![E]⟩ : Shape).Idx) :
    (vecScatterDims N E wf).window j 0 = 0 := by
  unfold ScatterDims.window
  rw [dif_neg (show (0 : Fin 1) ∉ (vecScatterDims N E wf).sKept from zero_not_mem_kept)]

/-- WHERE AN UPDATE LANDS: update `e` lands at operand entry `n` exactly when its scatter index `idx (e, 0)`, read
    signed, is `n`. (A bin number outside `[0, N)` is dropped, and is no `n : Fin N`.) -/
theorem scatter_resultIdx?_iff (wf) (idx : IVec ⟨2, ![E, 1]⟩ w) (e : Fin E) (n : Fin N) :
    (vecScatterDims N E wf).resultIdx? (ix1 e) idx = some (ix1 n)
      ↔ (idx (ix2 e ⟨0, Nat.one_pos⟩)).toInt = (n.val : Int) := by
  have h0 := scatter_start_zero (N := N) wf idx e
  have w0 := scatter_window_zero (N := N) wf (ix1 e)
  unfold ScatterDims.resultIdx?
  split
  · rename_i h
    have g0 := h 0
    rw [h0, w0] at g0
    rw [Option.some.injEq]
    constructor
    · intro hf
      have e0 : ((vecScatterDims N E wf).start (ix1 e) idx 0
          + (vecScatterDims N E wf).window (ix1 e) 0).toNat = n.val := congrArg (fun f => (f 0).val) hf
      rw [h0, w0] at e0
      omega
    · intro hz
      funext a
      refine Fin.ext ?_
      match a with
      | ⟨0, _⟩ =>
        show ((vecScatterDims N E wf).start (ix1 e) idx 0
          + (vecScatterDims N E wf).window (ix1 e) 0).toNat = n.val
        rw [h0, w0]; omega
  · rename_i h
    constructor
    · intro hf; exact absurd hf (by simp)
    · intro hz
      exfalso; apply h; intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [h0, w0]; have := n.isLt; omega

/-- A sum over the indices of a vector is the sum over its one coordinate. -/
theorem sum_idx1 {M : Type*} [AddCommMonoid M] {n : Nat} (f : (⟨1, ![n]⟩ : Shape).Idx → M) :
    ∑ j, f j = ∑ a : Fin n, f (ix1 a) := by
  refine Fintype.sum_equiv ⟨fun j => (j 0 : Fin n), fun a => ix1 a, fun j => (eq_ix1 j).symm, fun _ => rfl⟩ _ _ fun j => ?_
  exact congrArg f (eq_ix1 j)

/-- THE VECTOR SCATTER-ADD READ AT `n`, at the ideal instance: the operand's entry plus the sum, over the updates
    `e`, of the update's entry `e` when the scatter index `idx (e, 0)`, read signed, is `n`, and `0` otherwise. -/
theorem scatterAdd_vec_apply {φ : FTy} (wf) (x : FVec Ideal ⟨1, ![N]⟩ φ) (idx : IVec ⟨2, ![E, 1]⟩ w)
    (upd : FVec Ideal ⟨1, ![E]⟩ φ) (n : Fin N) :
    Host.scatterAdd (F := Ideal) (vecScatterDims N E wf) x idx upd (ix1 n)
      = x (ix1 n)
        + ∑ e : Fin E, if (idx (ix2 e ⟨0, Nat.one_pos⟩)).toInt = (n.val : Int) then upd (ix1 e) else 0 := by
  show x (ix1 n) + ∑ j ∈ Finset.univ.filter
    (fun j => (vecScatterDims N E wf).resultIdx? j idx = some (ix1 n)), upd j = _
  congr 1
  rw [Finset.sum_filter, sum_idx1]
  refine Finset.sum_congr rfl fun e _ => ?_
  simp only [scatter_resultIdx?_iff]

/-- A record with the vector scatter's four lists IS `vecScatterDims`. -/
theorem eq_vecScatterDims (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) : ∃ wf, d = vecScatterDims N E wf := by
  obtain ⟨uw, iw, sd, iv, wf⟩ := d
  simp only at huw hiw hsd hiv
  subst huw hiw hsd hiv
  exact ⟨wf, rfl⟩

/-- The vector scatter-add read at `n`, for ANY record with the vector scatter's four lists. -/
theorem scatterAdd_vec_apply_of_eq {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n)
        + ∑ e : Fin E, if (idx (ix2 e ⟨0, Nat.one_pos⟩)).toInt = (n.val : Int) then upd (ix1 e) else 0 := by
  obtain ⟨wf, rfl⟩ := eq_vecScatterDims d huw hiw hsd hiv
  exact scatterAdd_vec_apply wf x idx upd n

end Cert.LibVecScatter

end
-- ==== Proof.AggReal.lean ====
/-
  The mean aggregation keeps arrays real.

  Each layer replaces a node's row by the mean of the rows of its in-neighbours: the rows at the edges' sources are
  gathered, added into the rows at the edges' destinations, and every row is scaled by the inverse of the number of
  incoming edges (zero for a node without incoming edges).

  An entry of the row gather is an entry of the gathered array. An entry of a scatter-add is the operand's entry plus a
  finite sum whose terms are entries of the updates or zero. So both keep arrays real. The count of incoming edges is
  a scatter-add of ones into zeros, hence real; the larger of it and one is a real that is at least one, so its
  reciprocal is real; the selection picks that reciprocal or zero. A product of two reals is real.
-/
import proofs.«170960_j60790967107705_2_alg».proof.Proof.ReadP
import Idealize.ShloMosaic.Lib.IdealHost
import proofs.«170960_j60790967107705_2_alg».proof.Proof.Basics
import proofs.«170960_j60790967107705_2_alg».proof.Proof.LibRowOps
import proofs.«170960_j60790967107705_2_alg».proof.Proof.LibVecScatter

noncomputable section

open scoped BigOperators

namespace Cert.Sage

open Idealize.ShloMosaic Idealize.ShloMosaic.ValueIdx

variable {N E C w : Nat}

/-! ## Elements -/

/-- The sum of two reals is real. -/
theorem real_add {a b : EReal} (ha : ∃ r : ℝ, a = r) (hb : ∃ r : ℝ, b = r) : ∃ r : ℝ, a + b = (r : EReal) := by
  obtain ⟨x, rfl⟩ := ha
  obtain ⟨y, rfl⟩ := hb
  exact ⟨x + y, (EReal.coe_add x y).symm⟩

/-- The product of two reals is real. -/
theorem real_mul {a b : EReal} (ha : ∃ r : ℝ, a = r) (hb : ∃ r : ℝ, b = r) : ∃ r : ℝ, a * b = (r : EReal) := by
  obtain ⟨x, rfl⟩ := ha
  obtain ⟨y, rfl⟩ := hb
  exact ⟨x * y, (EReal.coe_mul x y).symm⟩

/-- A real divided by the larger of a real and one is real: the divisor is a real that is at least one. -/
theorem real_div_max_one {a c : EReal} (ha : ∃ r : ℝ, a = r) (hc : ∃ r : ℝ, c = r) :
    ∃ r : ℝ, Ideal.div a (max c 1) = (r : EReal) := by
  obtain ⟨x, rfl⟩ := ha
  obtain ⟨y, rfl⟩ := hc
  have hm : max (y : EReal) 1 = ((max y 1 : ℝ) : EReal) := by
    rw [← EReal.coe_one]
    exact (EReal.coe_strictMono.monotone.map_max).symm
  have hne : max y 1 ≠ 0 := (lt_of_lt_of_le one_pos (le_max_right y 1)).ne'
  rw [hm, Ideal.div_coe hne, ← EReal.coe_mul]
  exact ⟨_, rfl⟩

/-! ## Arrays -/

/-- A broadcast of a real array is real: each entry is an entry of the operand. -/
theorem isReal_broadcastInDim {s t : Shape} (dims : Fin s.rank → Fin t.rank) (h : s.BroadcastsInDim t dims)
    (x : s.Idx → EReal) (hx : IsReal x) : IsReal (broadcastInDim t dims h x) :=
  fun _ => hx _

/-- The entrywise product of two real arrays is real. -/
theorem isReal_mulf {s : Shape} {φ : FTy} (a b : FVec Ideal s φ) (ha : IsReal a) (hb : IsReal b) :
    IsReal (mulf a b) :=
  fun i => real_mul (ha i) (hb i)

/-- A selection between two real arrays is real. -/
theorem isReal_select {s : Shape} (c : IVec s 1) (a b : s.Idx → EReal) (ha : IsReal a) (hb : IsReal b) :
    IsReal (select c a b) := by
  intro i
  rw [select_apply]
  unfold Scalar.select
  split
  · exact ha i
  · exact hb i

/-- The row gather of a real array is real. -/
theorem isReal_gather_rows (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → EReal) (hx : IsReal x)
    (idx : IVec ⟨2, ![E, 1]⟩ w) : IsReal (Host.gather d x idx) := by
  intro j
  obtain ⟨e, c, rfl⟩ : ∃ (e : Fin E) (c : Fin C), j = ix2 e c := ⟨j 0, j 1, eq_ix2 j⟩
  rw [Cert.LibRowOps.gather_rows_apply_of_eq hN d hod hcd hob hsb hsm hiv hss x idx e c]
  exact hx _

/-- The row scatter-add of real updates into a real operand is real. -/
theorem isReal_scatterAdd_rows {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (hx : IsReal x) (idx : IVec ⟨2, ![E, 1]⟩ w)
    (upd : FVec Ideal ⟨2, ![E, C]⟩ φ) (hu : IsReal upd) : IsReal (Host.scatterAdd (F := Ideal) d x idx upd) := by
  intro j
  obtain ⟨n, c, rfl⟩ : ∃ (n : Fin N) (c : Fin C), j = ix2 n c := ⟨j 0, j 1, eq_ix2 j⟩
  rw [Cert.LibRowOps.scatterAdd_rows_apply_of_eq d huw hiw hsd hiv x idx upd n c]
  refine real_add (hx _) (real_sum _ fun e => ?_)
  split
  · exact hu _
  · exact ⟨0, rfl⟩

/-- The scatter-add of real updates into a real vector is real. -/
theorem isReal_scatterAdd_vec {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (hx : IsReal x) (idx : IVec ⟨2, ![E, 1]⟩ w)
    (upd : FVec Ideal ⟨1, ![E]⟩ φ) (hu : IsReal upd) : IsReal (Host.scatterAdd (F := Ideal) d x idx upd) := by
  intro j
  obtain ⟨n, rfl⟩ : ∃ n : Fin N, j = ix1 n := ⟨j 0, eq_ix1 j⟩
  rw [Cert.LibVecScatter.scatterAdd_vec_apply_of_eq d huw hiw hsd hiv x idx upd n]
  refine real_add (hx _) (real_sum _ fun e => ?_)
  split
  · exact hu _
  · exact ⟨0, rfl⟩

/-- THE INVERSE COUNT IS REAL: where the count of incoming edges is positive, one over the larger of the count and
    one, elsewhere zero. The count is a scatter-add of real updates into a real vector; `one` is the array of ones
    the count is compared with inside the maximum. -/
theorem isReal_inv_count (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (z0 z1 z2 num one : FVec Ideal ⟨1, ![N]⟩ .f32) (idx : IVec ⟨2, ![E, 1]⟩ w)
    (upd : FVec Ideal ⟨1, ![E]⟩ .f32) (hz0 : IsReal z0) (hu : IsReal upd) (hnum : IsReal num)
    (hone : ∀ i, one i = 1) (hz2 : IsReal z2) :
    IsReal (select (cmpf .ogt (Host.scatterAdd (F := Ideal) d z0 idx upd) z1)
      (Host.divf num (maximumf (Host.scatterAdd (F := Ideal) d z0 idx upd) one)) z2) := by
  have hcnt := isReal_scatterAdd_vec d huw hiw hsd hiv z0 hz0 idx upd hu
  refine isReal_select _ _ _ (fun i => ?_) hz2
  show ∃ r : ℝ, Ideal.div (num i) (max (Host.scatterAdd (F := Ideal) d z0 idx upd i) (one i)) = (r : EReal)
  rw [hone i]
  exact real_div_max_one (hnum i) (hcnt i)

/-- THE MEAN AGGREGATION IS REAL: gather the rows of a real array, add them into the rows of a real accumulator,
    scale entrywise by a real array. -/
theorem isReal_aggregate (hN : 0 < N) (dS : ScatterDims ⟨2, ![N, C]⟩ ⟨2, ![E, 1]⟩ ⟨2, ![E, C]⟩)
    (huw : dS.updateWindowDims = [1]) (hiw : dS.insertedWindowDims = [0]) (hsd : dS.scatterDimsToOperandDims = [0])
    (hivS : dS.indexVectorDim = 1) (dG : GatherDims ⟨2, ![N, C]⟩ ⟨2, ![E, 1]⟩ ⟨2, ![E, C]⟩)
    (hod : dG.offsetDims = [1]) (hcd : dG.collapsedSliceDims = [0]) (hob : dG.operandBatchingDims = [])
    (hsb : dG.startIndicesBatchingDims = []) (hsm : dG.startIndexMap = [0]) (hivG : dG.indexVectorDim = 1)
    (hss : dG.sliceSizes = ![1, C]) (x z scale : FVec Ideal ⟨2, ![N, C]⟩ .f32) (hx : IsReal x) (hz : IsReal z)
    (hs : IsReal scale) (sidx didx : IVec ⟨2, ![E, 1]⟩ w) :
    IsReal (mulf (Host.scatterAdd (F := Ideal) dS z didx (Host.gather dG x sidx)) scale) :=
  isReal_mulf _ _
    (isReal_scatterAdd_rows dS huw hiw hsd hivS z hz didx _
      (isReal_gather_rows hN dG hod hcd hob hsb hsm hivG hss x hx sidx)) hs

/-! ## The reference's three aggregations

The stages of the reference program, opened once: the scale array is the broadcast along the rows of the inverse count,
and each layer's aggregate is the scaled scatter-add of the gathered rows of that layer's input. -/

open Cert.ReferenceIdeal Cert.ReferenceIdeal.Read

/-- An array that reads the zero pattern everywhere is real. -/
theorem isReal_of_eq_zero {ι : Type} (a : ι → EReal) (h : ∀ i, a i = Ideal.ofBits .f32 0x00000000#32) : IsReal a :=
  fun i => ⟨0, by rw [h i, Ideal.ofBits_zero_f32]; rfl⟩

/-- An array that reads the pattern of one everywhere is real. -/
theorem isReal_of_eq_one {ι : Type} (a : ι → EReal) (h : ∀ i, a i = Ideal.ofBits .f32 0x3F800000#32) : IsReal a :=
  fun i => ⟨1, by rw [h i, Ideal.ofBits_one_f32]; rfl⟩

/-- THE SCALE IS REAL: the inverse count of incoming edges, as a column. -/
theorem invc_real (x1 : (⟨S2x600000, .i32⟩ : BufTy).Contents (Elt Ideal)) :
    IsReal (val_main_v15 (F := Ideal) x1) := by
  unfold val_main_v15 val_main_v14 val_main_v13 val_main_v11 val_main_v9 val_main_v7
  refine isReal_broadcastInDim _ _ _ ?_
  exact isReal_inv_count scatter_S100000_S600000x1_S600000_n_0_0_1 rfl rfl rfl rfl
    (val_main_v5 (F := Ideal)) (val_main_v8 (F := Ideal)) (val_main_call0_v1 (F := Ideal))
    (val_main_v12 (F := Ideal)) (val_main_v10 (F := Ideal)) (val_main_v6 (F := Ideal) x1) (val_main_v4 (F := Ideal))
    (isReal_of_eq_zero _ fun _ => rfl) (isReal_of_eq_one _ fun _ => rfl) (isReal_of_eq_one _ fun _ => rfl)
    (fun _ => Ideal.ofBits_one_f32) (isReal_of_eq_zero _ fun _ => rfl)

/-- The first layer's aggregate is real when the input is. -/
theorem agg0_real (x0 : (⟨S100000x128, .f32⟩ : BufTy).Contents (Elt Ideal))
    (x1 : (⟨S2x600000, .i32⟩ : BufTy).Contents (Elt Ideal)) (h0 : IsReal x0) :
    IsReal (val_main_v27 (F := Ideal) x0 x1) := by
  unfold val_main_v27 val_main_v25 val_main_v22 val_main_v26
  exact isReal_aggregate (by decide) scatter_S100000x128_S600000x1_S600000x128_1_0_0_1 rfl rfl rfl rfl
    gather_S100000x128_S600000x1_S600000x128_1_0_n_n_0_1_1128 rfl rfl rfl rfl rfl rfl rfl
    x0 (val_main_v23 (F := Ideal)) _ h0 (isReal_of_eq_zero _ fun _ => rfl)
    (isReal_broadcastInDim _ _ _ (invc_real x1)) (val_main_v21 (F := Ideal) x1) (val_main_v24 (F := Ideal) x1)

/-- The second layer's aggregate is real when its input, the first layer's output, is. -/
theorem agg1_real (x0 : (⟨S100000x128, .f32⟩ : BufTy).Contents (Elt Ideal)) (x1 : (⟨S2x600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 x6 x7 x8 : (⟨S3x128, .f32⟩ : BufTy).Contents (Elt Ideal)) (x9 : (⟨S128x128, .f32⟩ : BufTy).Contents (Elt Ideal))
    (hX : IsReal (val_main_v68 (F := Ideal) x0 x1 x2 x3 x4 x5 x6 x7 x8 x9)) :
    IsReal (val_main_v80 (F := Ideal) x0 x1 x2 x3 x4 x5 x6 x7 x8 x9) := by
  unfold val_main_v80 val_main_v78 val_main_v75 val_main_v79
  exact isReal_aggregate (by decide) scatter_S100000x128_S600000x1_S600000x128_1_0_0_1 rfl rfl rfl rfl
    gather_S100000x128_S600000x1_S600000x128_1_0_n_n_0_1_1128 rfl rfl rfl rfl rfl rfl rfl
    _ (val_main_v76 (F := Ideal)) _ hX (isReal_of_eq_zero _ fun _ => rfl)
    (isReal_broadcastInDim _ _ _ (invc_real x1)) (val_main_v74 (F := Ideal) x1) (val_main_v77 (F := Ideal) x1)

/-- The third layer's aggregate is real when its input, the second layer's output, is. -/
theorem agg2_real (x0 : (⟨S100000x128, .f32⟩ : BufTy).Contents (Elt Ideal)) (x1 : (⟨S2x600000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 x6 x7 x8 : (⟨S3x128, .f32⟩ : BufTy).Contents (Elt Ideal)) (x9 : (⟨S128x128, .f32⟩ : BufTy).Contents (Elt Ideal))
    (hX : IsReal (val_main_v119 (F := Ideal) x0 x1 x2 x3 x4 x5 x6 x7 x8 x9)) :
    IsReal (val_main_v131 (F := Ideal) x0 x1 x2 x3 x4 x5 x6 x7 x8 x9) := by
  unfold val_main_v131 val_main_v129 val_main_v126 val_main_v130
  exact isReal_aggregate (by decide) scatter_S100000x128_S600000x1_S600000x128_1_0_0_1 rfl rfl rfl rfl
    gather_S100000x128_S600000x1_S600000x128_1_0_n_n_0_1_1128 rfl rfl rfl rfl rfl rfl rfl
    _ (val_main_v127 (F := Ideal)) _ hX (isReal_of_eq_zero _ fun _ => rfl)
    (isReal_broadcastInDim _ _ _ (invc_real x1)) (val_main_v125 (F := Ideal) x1) (val_main_v128 (F := Ideal) x1)

end Cert.Sage

end
-- ==== Proof.PreFacts.lean ====
/-
  What the precondition says, entry by entry.

  The precondition is the conjunction, over the eleven float arguments, of "every entry has absolute value below
  plus infinity", and last "every entry of the running variance is at least zero". An extended real whose absolute
  value max(x, -x) lies strictly below the top element is neither infinity, hence a real number. So under the
  precondition every float argument is an array of real numbers and the running variance is entrywise nonnegative.

  Two facts on the normalisation used later: the constant added to the variance denotes a positive real, and the
  reciprocal square root of a positive real (a nonnegative real plus a positive one) is a real number.
-/
import proofs.«170960_j60790967107705_2_alg».proof.Pre_finite_inputs
import proofs.«170960_j60790967107705_2_alg».proof.Proof.Basics
import Idealize.ShloMosaic.Lib.ReduceAll
import Idealize.ShloMosaic.Lib.ValueIdx

noncomputable section

namespace Cert.Sage

open Idealize.ShloMosaic Idealize.ShloMosaic.ValueIdx Cert.Pre_finite_inputs

/-- The scalar shape has one index. -/
instance subsingleton_scalar_idx : Subsingleton S_.Idx := ⟨fun a b => funext fun d => d.elim0⟩

/-- The pattern of plus infinity denotes the top element. -/
theorem ofBits_inf : Ideal.ofBits .f32 0x7F800000#32 = ⊤ := by
  simp [Ideal.ofBits, Ideal.ieee]

/-- An extended real whose absolute value max(x, -x) is strictly below plus infinity is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An extended real that compares "at least" against the zero pattern is at least zero. -/
theorem nonneg_of_ge (x : EReal)
    (h : Ideal.cmp .oge x (Ideal.ofBits .f32 0x00000000#32) = 1#1) : (0 : EReal) ≤ x := by
  rw [Ideal.ofBits_zero_f32] at h
  by_contra hx
  simp [Ideal.cmp, hx] at h

/-- "All entries have absolute value below the bound array" read back: when the bound array is plus infinity
    everywhere and the conjunction over all entries is true, the array is real. -/
theorem isReal_of_all {s : Shape} {axes : List (Fin s.rank)} (hred : s.ReducesTo axes S_) (hu : 0 < S_.numel)
    (x bound : FVec Ideal s .f32) (hb : ∀ i, bound i = Ideal.ofBits .f32 0x7F800000#32) (init : IVec S_ 1)
    (e : Host.reduce IntOp.andi (cmpf .olt (Host.absf x) bound) init hred hu ix0 = 1#1) : IsReal x := by
  intro i
  have hi := Host.reduce_andi_all _ _ _ _ _ e i
  rw [cmpf_apply, hb i] at hi
  exact real_of_abs_lt (x i) hi

variable [Cert.Pre_finite_inputs.Facts]

/-- THE PRECONDITION DECODED: every float argument is an array of reals, and the running variance is nonnegative. -/
theorem pre_facts (x0 : FVec Ideal S100000x128 .f32) (x1 : IVec S2x600000 32) (x2 : FVec Ideal S3x128x128 .f32)
    (x3 : FVec Ideal S3x128 .f32) (x4 : FVec Ideal S3x128x128 .f32) (x5 x6 x7 x8 : FVec Ideal S3x128 .f32)
    (x9 : FVec Ideal S128x128 .f32) (x10 : FVec Ideal S2x128 .f32) (x11 : FVec Ideal S2 .f32)
    (h : Cert.Pre_finite_inputs.fn (F := Ideal) x0 x1 x2 x3 x4 x5 x6 x7 x8 x9 x10 x11 = (fun _ => 1#1)) :
    IsReal x0 ∧ IsReal x2 ∧ IsReal x3 ∧ IsReal x4 ∧ IsReal x5 ∧ IsReal x6 ∧ IsReal x7 ∧ IsReal x8 ∧ IsReal x9
      ∧ IsReal x10 ∧ IsReal x11 ∧ (∀ i, (0 : EReal) ≤ x8 i) := by
  have e := congrFun h ix0
  dsimp only [fn, fn_part1, fn_part2, fn_part3] at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, hge⟩ := e
  refine ⟨isReal_of_all _ _ x0 _ (fun _ => rfl) _ h0, isReal_of_all _ _ x2 _ (fun _ => rfl) _ h2,
    isReal_of_all _ _ x3 _ (fun _ => rfl) _ h3, isReal_of_all _ _ x4 _ (fun _ => rfl) _ h4,
    isReal_of_all _ _ x5 _ (fun _ => rfl) _ h5, isReal_of_all _ _ x6 _ (fun _ => rfl) _ h6,
    isReal_of_all _ _ x7 _ (fun _ => rfl) _ h7, isReal_of_all _ _ x8 _ (fun _ => rfl) _ h8,
    isReal_of_all _ _ x9 _ (fun _ => rfl) _ h9, isReal_of_all _ _ x10 _ (fun _ => rfl) _ h10,
    isReal_of_all _ _ x11 _ (fun _ => rfl) _ h11, fun i => ?_⟩
  have hi := Host.reduce_andi_all _ _ _ _ _ hge i
  rw [cmpf_apply] at hi
  exact nonneg_of_ge (x8 i) hi

/-- The constant added to the variance (the pattern of 1e-5, a positive normal number) denotes a positive real. -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-- The reciprocal square root of a nonnegative real plus a positive real is a real number: the argument is a
    positive real, so the value is the reciprocal of its square root. -/
theorem rsqrt_real (v e : ℝ) (hv : 0 ≤ v) (he : 0 < e) :
    ∃ r : ℝ, Ideal.rsqrt ((v : EReal) + (e : EReal)) = (r : EReal) := by
  have hpos : 0 < v + e := by linarith
  refine ⟨(Real.sqrt (v + e))⁻¹, ?_⟩
  rw [← EReal.coe_add, Ideal.rsqrt_coe, if_neg (not_lt.mpr hpos.le), if_neg hpos.ne']

end Cert.Sage

end
-- ==== Proof.KernelValue.lean ====
/-
  The idealized kernel's result is the reference's result.

  The result buffer ends at the fold of the host stretches and the three regions' write-backs (KernelRun). Reading
  that fold from the last region back: the third region leaves the folded last layer of the arrays it finds
  (Region2); those arrays are the reference's stages once the second region has left the reference's second layer
  `X2` (KernelHost2); the second region leaves the folded middle layer of what it finds (Region1), which are the
  reference's stages once the first region has left `X1` (KernelHost1); and the first region leaves the folded first
  layer of the reference's stages (Region0, KernelHost0). Under the precondition every argument is a real array and
  the variances are nonnegative, so `rsqrt(var + eps)` and every stage along the way is real, and on real arrays the
  folded layers are the reference's (Bridge).
-/
import proofs.«170960_j60790967107705_2_alg».proof.Proof.KernelHost0
import proofs.«170960_j60790967107705_2_alg».proof.Proof.KernelHost1
import proofs.«170960_j60790967107705_2_alg».proof.Proof.KernelHost2
import proofs.«170960_j60790967107705_2_alg».proof.Proof.Region0
import proofs.«170960_j60790967107705_2_alg».proof.Proof.Region1
import proofs.«170960_j60790967107705_2_alg».proof.Proof.Region2
import proofs.«170960_j60790967107705_2_alg».proof.Proof.Bridge
import proofs.«170960_j60790967107705_2_alg».proof.Proof.RefParams
import proofs.«170960_j60790967107705_2_alg».proof.Proof.AggReal
import proofs.«170960_j60790967107705_2_alg».proof.Proof.PreFacts
import proofs.«170960_j60790967107705_2_alg».proof.Proof.Gen.Pre_finite_inputs

set_option maxRecDepth 16384
set_option maxHeartbeats 1000000

noncomputable section

namespace Cert.KernelIdeal.KValue

open Cert.KernelIdeal Cert.KernelIdeal.Gen Cert.Sage
open Idealize.ShloMosaic Idealize.ShloMosaic.TcCoe Idealize.SL.Sem Idealize.ShloMosaic.StableHlo Idealize.ShloMosaic.ValueIdx
open Cert.ReferenceIdeal.Read (val_main_v68 val_main_v119 val_main_v175)
open Cert.KernelIdeal.HostValue0 Cert.KernelIdeal.HostValue1 Cert.KernelIdeal.HostValue

variable (m : (ℓ : Loc nD τ sig) → Buf (Elt Ideal) ℓ) (ρ : Dev nD → PrngReg) (c : Dev nD)

/-- Under the precondition the fold of the segments, read at the result buffer, is the reference's result of the
    same arguments. -/
theorem result_eq
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = (fun _ => 1#1)) :
    (W8 (F := Ideal) m ρ c (Proc.devRef .tc main_v110) : A2 100000 2)
      = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨h0, h2, h3, h4, h5, h6, h7, h8, h9, h10, h11, hpos⟩ := pre_facts _ _ _ _ _ _ _ _ _ _ _ _ hpre
  have hrs0 := rs0_real _ h8 hpos eps_pos rsqrt_real
  have hrs1 := rs1_real _ h8 hpos eps_pos rsqrt_real
  have hrs2 := rs2_real _ h8 hpos eps_pos rsqrt_real
  have hagg0 := agg0_real _ (m ((c : Thread nD τ).loc main_arg1)) h0
  -- the first region
  have k0 : (W4 (F := Ideal) m ρ c (Proc.devRef .tc main_v52) : A2 100000 128) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    refine ((W4_arr m ρ c 7).trans (Cert.KernelIdeal.RegionValue.arr0 (V3 m ρ) c)).trans ?_
    rw [v37_eq, arg0_eq, v41_eq, v45_eq, v47_eq, v49_eq, v51_eq]
    exact layer0_bridge _ _ _ _ _ _ _ _ _ _ hagg0 h0 (real_v30 _ h2) (real_v39 _ h4) (real_v56 _ h5) hrs0 (real_v61 _ h6)
      (real_v33 _ h3) (real_v43 _ h7)
  have hx1 : IsReal (val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
    x1_real _ _ _ _ _ _ _ _ _ _ hagg0 h0 (real_v30 _ h2) (real_v39 _ h4) (real_v56 _ h5) hrs0 (real_v61 _ h6)
      (real_v33 _ h3) (real_v43 _ h7) (real_v66 _ h9)
  have hagg1 := agg1_real _ _ _ _ _ _ _ _ _ _ hx1
  -- the second region
  have k1 : (W6 (F := Ideal) m ρ c (Proc.devRef .tc main_v80) : A2 100000 128) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    refine ((W6_arr m ρ c 6).trans (Cert.KernelIdeal.RegionValue1.arr1 (V5 m ρ) c)).trans ?_
    rw [v67_eq m ρ c k0, v52_keep, k0, v71_eq, v75_eq, v77_eq, v79_eq]
    exact layer1_bridge _ _ _ _ _ _ _ _ _ _ hagg1 hx1 (real_v83 _ h2) (real_v92 _ h4) (real_v109 _ h5) hrs1 (real_v114 _ h6)
      (real_v86 _ h3) (real_v96 _ h7)
  have hx2 : IsReal (val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
    x2_real _ _ _ _ _ _ _ _ _ _ hagg1 hx1 (real_v83 _ h2) (real_v92 _ h4) (real_v109 _ h5) hrs1 (real_v114 _ h6)
      (real_v86 _ h3) (real_v96 _ h7)
  have hagg2 := agg2_real _ _ _ _ _ _ _ _ _ _ hx2
  -- the third region
  refine ((W8_arr m ρ c 8).trans (Cert.KernelIdeal.RegionValue2.arr2 (V7 m ρ) c)).trans ?_
  rw [v95_eq m ρ c k1, v80_keep, k1, v99_eq, v103_eq, v105_eq, v107_eq, v109_eq, arg11_eq]
  exact final_bridge _ _ _ _ _ _ _ _ _ _ _ _ hagg2 hx2 (real_v134 _ h2) (real_v143 _ h4) (real_v160 _ h5) hrs2 (real_v165 _ h6)
    (real_v137 _ h3) (real_v147 _ h7)

end Cert.KernelIdeal.KValue
-- ==== Proof.lean ====
/-
  The certificate of a three-layer GraphSAGE network (mean aggregation over 600000 edges, two 128 × 128 linear maps,
  batch normalisation with `rsqrt(var + eps)`, ReLU, a residual, and a 128 × 2 classifier after the last layer) on
  100000 nodes: a kernel program of three pipelined regions among host operations, against a plain reference.

  The frames of the kernel program at both instances are the generated ones; the reference's frame is its run with
  the result dropped; the ideal pass rewrote nothing, so `preserves` is trivial. For `algebraic`: at the ideal
  instance both programs compute, layer by layer, the same aggregation and the same three or four matrix products;
  they differ only in the affine step, where the kernel multiplies the sum of the two products by the folded scale
  `g·rs` and adds the folded shift `bb + (bl − mu)·(g·rs)`, while the reference adds the bias `bl`, subtracts the
  mean `mu`, multiplies by `rs` and by `g` and adds `bb`. That is distributivity, which the extended reals have on
  real numbers; the precondition (every float input finite, every variance ≥ 0, so that `rs = rsqrt(var + eps)` is a
  positive real) makes every array along the way real. The kernel's result is read off its run region by region
  (KernelRun, Region0/1/2, KernelHost0/1/2, KernelValue) and meets the reference at the reference's own
  intermediate stages (RefLayers, Bridge).
-/
import proofs.«170960_j60790967107705_2_alg».proof.Defs
import proofs.«170960_j60790967107705_2_alg».proof.Proof.Gen.Kernel
import proofs.«170960_j60790967107705_2_alg».proof.Proof.Gen.Kernel.Skeleton
import proofs.«170960_j60790967107705_2_alg».proof.Proof.Gen.Kernel.Launch
import proofs.«170960_j60790967107705_2_alg».proof.Proof.Gen.Kernel.Points
import proofs.«170960_j60790967107705_2_alg».proof.Proof.Gen.Kernel.Frame
import proofs.«170960_j60790967107705_2_alg».proof.Proof.Gen.KernelIdeal
import proofs.«170960_j60790967107705_2_alg».proof.Proof.Gen.KernelIdeal.Skeleton
import proofs.«170960_j60790967107705_2_alg».proof.Proof.Gen.KernelIdeal.Launch
import proofs.«170960_j60790967107705_2_alg».proof.Proof.Gen.KernelIdeal.Points
import proofs.«170960_j60790967107705_2_alg».proof.Proof.Gen.KernelIdeal.Frame
import proofs.«170960_j60790967107705_2_alg».proof.Proof.Gen.ReferenceIdeal
import proofs.«170960_j60790967107705_2_alg».proof.Proof.Gen.Pre_finite_inputs
import proofs.«170960_j60790967107705_2_alg».proof.Proof.KernelRun
import proofs.«170960_j60790967107705_2_alg».proof.Proof.KernelValue
import proofs.«170960_j60790967107705_2_alg».proof.Proof.ReadP
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the reference's result of the (agreeing) arguments: the kernel's by reading its run region
    by region under the precondition, the reference's by its run. -/
theorem algebraic : Cert.algebraic_KernelIdeal_ReferenceIdeal := by
  intro m ρ m' ρ' hpre hagree
  refine ⟨fun c => Cert.ReferenceIdeal.Read.val_main_v175 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result_eq m ρ c (hpre c)), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v175_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
